-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v162) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x81920 : Shape := ⟨2, ![1024, 81920]⟩
abbrev S_ : Shape := ⟨0, ![]⟩

class Facts : Prop where
  bcast_S_S1024x81920 : S_.BroadcastsInDim S1024x81920 (![] : Fin 0 → Fin S1024x81920.rank)
  reducesTo_S1024x81920_S_d0_1 : S1024x81920.ReducesTo [0, 1] S_
  h_S_ : 0 < S_.numel

variable [Facts]

def fn {F : FTy → Type} [FloatOps F] (main_arg0 : FVec F S1024x81920 .f32) : IVec S_ 1 :=
  let main_v0 : FVec F S1024x81920 .f32 := Host.absf main_arg0
  let main_cst : FVec F S_ .f32 := constant S_ .f32 0x7F800000#32
  let main_v1 : FVec F S1024x81920 .f32 := broadcastInDim S1024x81920 ![] bcast_S_S1024x81920 main_cst
  let main_v2 : IVec S1024x81920 1 := cmpf .olt main_v0 main_v1
  let main_c : IVec S_ 1 := constantI S_ 1 1#1
  let main_v3 : IVec S_ 1 := (fun x v => Host.reduce IntOp.andi x v reducesTo_S1024x81920_S_d0_1 h_S_) main_v2 main_c
  main_v3
-- ==== Kernel.lean ====
abbrev S1024x81920 : Shape := ⟨2, ![1024, 81920]⟩
abbrev S1024x16 : Shape := ⟨2, ![1024, 16]⟩
abbrev S32x81920 : Shape := ⟨2, ![32, 81920]⟩
abbrev S32x16 : Shape := ⟨2, ![32, 16]⟩
abbrev S32x16x10x512 : Shape := ⟨4, ![32, 16, 10, 512]⟩
abbrev S32x16x1 : Shape := ⟨3, ![32, 16, 1]⟩
abbrev S32x16x1x512 : Shape := ⟨4, ![32, 16, 1, 512]⟩
abbrev S32x16x512 : Shape := ⟨3, ![32, 16, 512]⟩
abbrev S32x16x1x1 : Shape := ⟨4, ![32, 16, 1, 1]⟩
abbrev S32x16x1x2 : Shape := ⟨4, ![32, 16, 1, 2]⟩
abbrev S32x16x2 : Shape := ⟨3, ![32, 16, 2]⟩
abbrev S32x16x2x256 : Shape := ⟨4, ![32, 16, 2, 256]⟩
abbrev S32x16x2x1 : Shape := ⟨4, ![32, 16, 2, 1]⟩
abbrev S32x16x2x2 : Shape := ⟨4, ![32, 16, 2, 2]⟩
abbrev S32x16x4 : Shape := ⟨3, ![32, 16, 4]⟩
abbrev S32x16x4x128 : Shape := ⟨4, ![32, 16, 4, 128]⟩
abbrev S32x16x4x1 : Shape := ⟨4, ![32, 16, 4, 1]⟩
abbrev S32x16x4x2 : Shape := ⟨4, ![32, 16, 4, 2]⟩
abbrev S32x16x8 : Shape := ⟨3, ![32, 16, 8]⟩
abbrev S32x16x8x64 : Shape := ⟨4, ![32, 16, 8, 64]⟩
abbrev S32x16x8x1 : Shape := ⟨4, ![32, 16, 8, 1]⟩
abbrev S32x16x8x2 : Shape := ⟨4, ![32, 16, 8, 2]⟩
abbrev S32x16x16 : Shape := ⟨3, ![32, 16, 16]⟩
abbrev S32x16x16x32 : Shape := ⟨4, ![32, 16, 16, 32]⟩
abbrev S32x16x16x1 : Shape := ⟨4, ![32, 16, 16, 1]⟩
abbrev S32x16x16x2 : Shape := ⟨4, ![32, 16, 16, 2]⟩
abbrev S32x16x32 : Shape := ⟨3, ![32, 16, 32]⟩
abbrev S32x16x32x16 : Shape := ⟨4, ![32, 16, 32, 16]⟩
abbrev S32x16x32x1 : Shape := ⟨4, ![32, 16, 32, 1]⟩
abbrev S32x16x32x2 : Shape := ⟨4, ![32, 16, 32, 2]⟩
abbrev S32x16x64 : Shape := ⟨3, ![32, 16, 64]⟩
abbrev S32x16x64x8 : Shape := ⟨4, ![32, 16, 64, 8]⟩
abbrev S32x16x64x1 : Shape := ⟨4, ![32, 16, 64, 1]⟩
abbrev S32x16x64x2 : Shape := ⟨4, ![32, 16, 64, 2]⟩
abbrev S32x16x128 : Shape := ⟨3, ![32, 16, 128]⟩
abbrev S32x16x128x4 : Shape := ⟨4, ![32, 16, 128, 4]⟩
abbrev S32x16x128x1 : Shape := ⟨4, ![32, 16, 128, 1]⟩
abbrev S32x16x128x2 : Shape := ⟨4, ![32, 16, 128, 2]⟩
abbrev S32x16x256 : Shape := ⟨3, ![32, 16, 256]⟩
abbrev S32x16x256x2 : Shape := ⟨4, ![32, 16, 256, 2]⟩
abbrev S32x16x256x1 : Shape := ⟨4, ![32, 16, 256, 1]⟩
abbrev S32x16x512x1 : Shape := ⟨4, ![32, 16, 512, 1]⟩
abbrev S32x16x512x2 : Shape := ⟨4, ![32, 16, 512, 2]⟩

abbrev nBuf : Space → Nat
  | .hbm => 2
  | .vmem => 4
  | .smem => 0
  | _ => 0

abbrev bufTy : (tb : Table) → Fin (tcTables nBuf tb) → BufTy
  | .hbm, ⟨0, _⟩ => ⟨S1024x81920, .f32⟩
  | .hbm, ⟨1, _⟩ => ⟨S1024x16, .f32⟩
  | .local _ .vmem, ⟨0, _⟩ => ⟨S32x81920, .f32⟩
  | .local _ .vmem, ⟨1, _⟩ => ⟨S32x81920, .f32⟩
  | .local _ .vmem, ⟨2, _⟩ => ⟨S32x16, .f32⟩
  | .local _ .vmem, ⟨3, _⟩ => ⟨S32x16, .f32⟩
  | _, _ => ⟨S1024x81920, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x81920 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S32x81920_S32x81920_0_0 : ∀ a, (![0, 0] : Fin 2 → Nat) a + S32x81920.size a ≤ S32x81920.size a
  h_S32x81920 : 0 < S32x81920.numel
  shapeCasts_S32x81920_S32x16x10x512 : S32x81920.ShapeCasts S32x16x10x512
  slices_S32x16x10x512_o0_0_0_0_S32x16x1x512 : S32x16x10x512.Slices ![0, 0, 0, 0] S32x16x1x512
  shapeCasts_S32x16x1x512_S32x16x512 : S32x16x1x512.ShapeCasts S32x16x512
  shapeCasts_S32x16x512_S32x16x1x512 : S32x16x512.ShapeCasts S32x16x1x512
  reduces_S32x16x1x512_S32x16x1 : S32x16x1x512.Reduces [3] S32x16x1
  shapeCasts_S32x16x1_S32x16x1x1 : S32x16x1.ShapeCasts S32x16x1x1
  concatenates_S32x16x1x1_S32x16x1x1_S32x16x1x2_d3 : Shape.Concatenates [S32x16x1x1, S32x16x1x1] S32x16x1x2 3
  broadcasts_S32x16x1x1_S32x16x1x2 : S32x16x1x1.Broadcasts S32x16x1x2
  shapeCasts_S32x16x1x2_S32x16x2 : S32x16x1x2.ShapeCasts S32x16x2
  slices_S32x16x10x512_o0_0_1_0_S32x16x1x512 : S32x16x10x512.Slices ![0, 0, 1, 0] S32x16x1x512
  shapeCasts_S32x16x512_S32x16x2x256 : S32x16x512.ShapeCasts S32x16x2x256
  reduces_S32x16x2x256_S32x16x2 : S32x16x2x256.Reduces [3] S32x16x2
  shapeCasts_S32x16x2_S32x16x2x1 : S32x16x2.ShapeCasts S32x16x2x1
  concatenates_S32x16x2x1_S32x16x2x1_S32x16x2x2_d3 : Shape.Concatenates [S32x16x2x1, S32x16x2x1] S32x16x2x2 3
  broadcasts_S32x16x2x1_S32x16x2x2 : S32x16x2x1.Broadcasts S32x16x2x2
  shapeCasts_S32x16x2x2_S32x16x4 : S32x16x2x2.ShapeCasts S32x16x4
  slices_S32x16x10x512_o0_0_2_0_S32x16x1x512 : S32x16x10x512.Slices ![0, 0, 2, 0] S32x16x1x512
  shapeCasts_S32x16x512_S32x16x4x128 : S32x16x512.ShapeCasts S32x16x4x128
  reduces_S32x16x4x128_S32x16x4 : S32x16x4x128.Reduces [3] S32x16x4
  shapeCasts_S32x16x4_S32x16x4x1 : S32x16x4.ShapeCasts S32x16x4x1
  concatenates_S32x16x4x1_S32x16x4x1_S32x16x4x2_d3 : Shape.Concatenates [S32x16x4x1, S32x16x4x1] S32x16x4x2 3
  broadcasts_S32x16x4x1_S32x16x4x2 : S32x16x4x1.Broadcasts S32x16x4x2
  shapeCasts_S32x16x4x2_S32x16x8 : S32x16x4x2.ShapeCasts S32x16x8
  slices_S32x16x10x512_o0_0_3_0_S32x16x1x512 : S32x16x10x512.Slices ![0, 0, 3, 0] S32x16x1x512
  shapeCasts_S32x16x512_S32x16x8x64 : S32x16x512.ShapeCasts S32x16x8x64
  reduces_S32x16x8x64_S32x16x8 : S32x16x8x64.Reduces [3] S32x16x8
  shapeCasts_S32x16x8_S32x16x8x1 : S32x16x8.ShapeCasts S32x16x8x1
  concatenates_S32x16x8x1_S32x16x8x1_S32x16x8x2_d3 : Shape.Concatenates [S32x16x8x1, S32x16x8x1] S32x16x8x2 3
  broadcasts_S32x16x8x1_S32x16x8x2 : S32x16x8x1.Broadcasts S32x16x8x2
  shapeCasts_S32x16x8x2_S32x16x16 : S32x16x8x2.ShapeCasts S32x16x16
  slices_S32x16x10x512_o0_0_4_0_S32x16x1x512 : S32x16x10x512.Slices ![0, 0, 4, 0] S32x16x1x512
  shapeCasts_S32x16x512_S32x16x16x32 : S32x16x512.ShapeCasts S32x16x16x32
  reduces_S32x16x16x32_S32x16x16 : S32x16x16x32.Reduces [3] S32x16x16
  shapeCasts_S32x16x16_S32x16x16x1 : S32x16x16.ShapeCasts S32x16x16x1
  concatenates_S32x16x16x1_S32x16x16x1_S32x16x16x2_d3 : Shape.Concatenates [S32x16x16x1, S32x16x16x1] S32x16x16x2 3
  broadcasts_S32x16x16x1_S32x16x16x2 : S32x16x16x1.Broadcasts S32x16x16x2
  shapeCasts_S32x16x16x2_S32x16x32 : S32x16x16x2.ShapeCasts S32x16x32
  slices_S32x16x10x512_o0_0_5_0_S32x16x1x512 : S32x16x10x512.Slices ![0, 0, 5, 0] S32x16x1x512
  shapeCasts_S32x16x512_S32x16x32x16 : S32x16x512.ShapeCasts S32x16x32x16
  reduces_S32x16x32x16_S32x16x32 : S32x16x32x16.Reduces [3] S32x16x32
  shapeCasts_S32x16x32_S32x16x32x1 : S32x16x32.ShapeCasts S32x16x32x1
  concatenates_S32x16x32x1_S32x16x32x1_S32x16x32x2_d3 : Shape.Concatenates [S32x16x32x1, S32x16x32x1] S32x16x32x2 3
  broadcasts_S32x16x32x1_S32x16x32x2 : S32x16x32x1.Broadcasts S32x16x32x2
  shapeCasts_S32x16x32x2_S32x16x64 : S32x16x32x2.ShapeCasts S32x16x64
  slices_S32x16x10x512_o0_0_6_0_S32x16x1x512 : S32x16x10x512.Slices ![0, 0, 6, 0] S32x16x1x512
  shapeCasts_S32x16x512_S32x16x64x8 : S32x16x512.ShapeCasts S32x16x64x8
  reduces_S32x16x64x8_S32x16x64 : S32x16x64x8.Reduces [3] S32x16x64
  shapeCasts_S32x16x64_S32x16x64x1 : S32x16x64.ShapeCasts S32x16x64x1
  concatenates_S32x16x64x1_S32x16x64x1_S32x16x64x2_d3 : Shape.Concatenates [S32x16x64x1, S32x16x64x1] S32x16x64x2 3
  broadcasts_S32x16x64x1_S32x16x64x2 : S32x16x64x1.Broadcasts S32x16x64x2
  shapeCasts_S32x16x64x2_S32x16x128 : S32x16x64x2.ShapeCasts S32x16x128
  slices_S32x16x10x512_o0_0_7_0_S32x16x1x512 : S32x16x10x512.Slices ![0, 0, 7, 0] S32x16x1x512
  shapeCasts_S32x16x512_S32x16x128x4 : S32x16x512.ShapeCasts S32x16x128x4
  reduces_S32x16x128x4_S32x16x128 : S32x16x128x4.Reduces [3] S32x16x128
  shapeCasts_S32x16x128_S32x16x128x1 : S32x16x128.ShapeCasts S32x16x128x1
  concatenates_S32x16x128x1_S32x16x128x1_S32x16x128x2_d3 : Shape.Concatenates [S32x16x128x1, S32x16x128x1] S32x16x128x2 3
  broadcasts_S32x16x128x1_S32x16x128x2 : S32x16x128x1.Broadcasts S32x16x128x2
  shapeCasts_S32x16x128x2_S32x16x256 : S32x16x128x2.ShapeCasts S32x16x256
  slices_S32x16x10x512_o0_0_8_0_S32x16x1x512 : S32x16x10x512.Slices ![0, 0, 8, 0] S32x16x1x512
  shapeCasts_S32x16x512_S32x16x256x2 : S32x16x512.ShapeCasts S32x16x256x2
  reduces_S32x16x256x2_S32x16x256 : S32x16x256x2.Reduces [3] S32x16x256
  shapeCasts_S32x16x256_S32x16x256x1 : S32x16x256.ShapeCasts S32x16x256x1
  concatenates_S32x16x256x1_S32x16x256x1_S32x16x256x2_d3 : Shape.Concatenates [S32x16x256x1, S32x16x256x1] S32x16x256x2 3
  broadcasts_S32x16x256x1_S32x16x256x2 : S32x16x256x1.Broadcasts S32x16x256x2
  shapeCasts_S32x16x256x2_S32x16x512 : S32x16x256x2.ShapeCasts S32x16x512
  slices_S32x16x10x512_o0_0_9_0_S32x16x1x512 : S32x16x10x512.Slices ![0, 0, 9, 0] S32x16x1x512
  shapeCasts_S32x16x512_S32x16x512x1 : S32x16x512.ShapeCasts S32x16x512x1
  reduces_S32x16x512x1_S32x16x512 : S32x16x512x1.Reduces [3] S32x16x512
  concatenates_S32x16x512x1_S32x16x512x1_S32x16x512x2_d3 : Shape.Concatenates [S32x16x512x1, S32x16x512x1] S32x16x512x2 3
  broadcasts_S32x16x512x1_S32x16x512x2 : S32x16x512x1.Broadcasts S32x16x512x2
  reduces_S32x16x512x2_S32x16x2 : S32x16x512x2.Reduces [2] S32x16x2
  slices_S32x16x2_o0_0_1_S32x16x1 : S32x16x2.Slices ![0, 0, 1] S32x16x1
  shapeCasts_S32x16x1_S32x16 : S32x16x1.ShapeCasts S32x16
  inb_S32x16_S32x16_0_0 : ∀ a, (![0, 0] : Fin 2 → Nat) a + S32x16.size a ≤ S32x16.size a
  h_S32x16 : 0 < S32x16.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x81920.size a ≤ S1024x81920.size a
  hwx0_0 : ∀ i : grid0.Coords, EltTy.bits .f32 = 32 ∨ (Rect.block (s := S1024x81920) S32x81920.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x16.size a ≤ S1024x16.size a
  hwx0_1 : ∀ i : grid0.Coords, EltTy.bits .f32 = 32 ∨ (Rect.block (s := S1024x16) S32x16.size (cc0_transform_1 i) (hinb0_1 i)).WholeWords (EltTy.packing .f32)

variable [Facts₀]

abbrev win0_0 : Pipeline.Window sig grid0 :=
  Pipeline.Window.ofSpec (Memref.whole main_arg0) S32x81920.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S32x16.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1024x81920 : Shape := ⟨2, ![1024, 81920]⟩
abbrev S1024x16x10x512 : Shape := ⟨4, ![1024, 16, 10, 512]⟩
abbrev S_ : Shape := ⟨0, ![]⟩
abbrev S1024x16x1x1 : Shape := ⟨4, ![1024, 16, 1, 1]⟩
abbrev S1024x16x1 : Shape := ⟨3, ![1024, 16, 1]⟩
abbrev S1024x16x1x512 : Shape := ⟨4, ![1024, 16, 1, 512]⟩
abbrev S1024x16x512 : Shape := ⟨3, ![1024, 16, 512]⟩
abbrev S1024x16x1x2 : Shape := ⟨4, ![1024, 16, 1, 2]⟩
abbrev S1024x16x2 : Shape := ⟨3, ![1024, 16, 2]⟩
abbrev S1024x16x2x256 : Shape := ⟨4, ![1024, 16, 2, 256]⟩
abbrev S1024x16x2x1 : Shape := ⟨4, ![1024, 16, 2, 1]⟩
abbrev S1024x16x2x2 : Shape := ⟨4, ![1024, 16, 2, 2]⟩
abbrev S1024x16x4 : Shape := ⟨3, ![1024, 16, 4]⟩
abbrev S1024x16x4x128 : Shape := ⟨4, ![1024, 16, 4, 128]⟩
abbrev S1024x16x4x1 : Shape := ⟨4, ![1024, 16, 4, 1]⟩
abbrev S1024x16x4x2 : Shape := ⟨4, ![1024, 16, 4, 2]⟩
abbrev S1024x16x8 : Shape := ⟨3, ![1024, 16, 8]⟩
abbrev S1024x16x8x64 : Shape := ⟨4, ![1024, 16, 8, 64]⟩
abbrev S1024x16x8x1 : Shape := ⟨4, ![1024, 16, 8, 1]⟩
abbrev S1024x16x8x2 : Shape := ⟨4, ![1024, 16, 8, 2]⟩
abbrev S1024x16x16 : Shape := ⟨3, ![1024, 16, 16]⟩
abbrev S1024x16x16x32 : Shape := ⟨4, ![1024, 16, 16, 32]⟩
abbrev S1024x16x16x1 : Shape := ⟨4, ![1024, 16, 16, 1]⟩
abbrev S1024x16x16x2 : Shape := ⟨4, ![1024, 16, 16, 2]⟩
abbrev S1024x16x32 : Shape := ⟨3, ![1024, 16, 32]⟩
abbrev S1024x16x32x16 : Shape := ⟨4, ![1024, 16, 32, 16]⟩
abbrev S1024x16x32x1 : Shape := ⟨4, ![1024, 16, 32, 1]⟩
abbrev S1024x16x32x2 : Shape := ⟨4, ![1024, 16, 32, 2]⟩
abbrev S1024x16x64 : Shape := ⟨3, ![1024, 16, 64]⟩
abbrev S1024x16x64x8 : Shape := ⟨4, ![1024, 16, 64, 8]⟩
abbrev S1024x16x64x1 : Shape := ⟨4, ![1024, 16, 64, 1]⟩
abbrev S1024x16x64x2 : Shape := ⟨4, ![1024, 16, 64, 2]⟩
abbrev S1024x16x128 : Shape := ⟨3, ![1024, 16, 128]⟩
abbrev S1024x16x128x4 : Shape := ⟨4, ![1024, 16, 128, 4]⟩
abbrev S1024x16x128x1 : Shape := ⟨4, ![1024, 16, 128, 1]⟩
abbrev S1024x16x128x2 : Shape := ⟨4, ![1024, 16, 128, 2]⟩
abbrev S1024x16x256 : Shape := ⟨3, ![1024, 16, 256]⟩
abbrev S1024x16x256x2 : Shape := ⟨4, ![1024, 16, 256, 2]⟩
abbrev S1024x16x256x1 : Shape := ⟨4, ![1024, 16, 256, 1]⟩
abbrev S1024x16x512x1 : Shape := ⟨4, ![1024, 16, 512, 1]⟩
abbrev S1024x16x512x2 : Shape := ⟨4, ![1024, 16, 512, 2]⟩
abbrev S1024x16x1024 : Shape := ⟨3, ![1024, 16, 1024]⟩
abbrev S1024x16 : Shape := ⟨2, ![1024, 16]⟩

abbrev nBuf : Space → Nat
  | .hbm => 198
  | .vmem => 0
  | .smem => 0
  | _ => 0

abbrev hbmTy0_0 (i : Nat) : BufTy := match i % 128 with
  | 0 => ⟨S1024x81920, .f32⟩
  | 1 => ⟨S1024x16x10x512, .f32⟩
  | 2 => ⟨S1024x16x10x512, .f32⟩
  | 3 => ⟨S1024x16x10x512, .f32⟩
  | 4 => ⟨S_, .f32⟩
  | 5 => ⟨S1024x16x10x512, .f32⟩
  | 6 => ⟨S1024x16x10x512, .f32⟩
  | 7 => ⟨S_, .f32⟩
  | 8 => ⟨S1024x16x10x512, .f32⟩
  | 9 => ⟨S1024x16x10x512, .f32⟩
  | 10 => ⟨S1024x16x1x1, .f32⟩
  | 11 => ⟨S1024x16x1, .f32⟩
  | 12 => ⟨S_, .f32⟩
  | 13 => ⟨S1024x16x1, .f32⟩
  | 14 => ⟨S1024x16x1x512, .f32⟩
  | 15 => ⟨S1024x16x512, .f32⟩
  | 16 => ⟨S1024x16x1x512, .f32⟩
  | 17 => ⟨S_, .f32⟩
  | 18 => ⟨S1024x16x1, .f32⟩
  | 19 => ⟨S_, .f32⟩
  | 20 => ⟨S1024x16x1, .f32⟩
  | 21 => ⟨S1024x16x1, .f32⟩
  | 22 => ⟨S_, .f32⟩
  | 23 => ⟨S1024x16x1, .f32⟩
  | 24 => ⟨S1024x16x1, .f32⟩
  | 25 => ⟨S1024x16x1x1, .f32⟩
  | 26 => ⟨S1024x16x1x1, .f32⟩
  | 27 => ⟨S1024x16x1x2, .f32⟩
  | 28 => ⟨S1024x16x1x1, .f32⟩
  | 29 => ⟨S1024x16x1x2, .f32⟩
  | 30 => ⟨S1024x16x1x2, .f32⟩
  | 31 => ⟨S1024x16x2, .f32⟩
  | 32 => ⟨S1024x16x1x512, .f32⟩
  | 33 => ⟨S1024x16x512, .f32⟩
  | 34 => ⟨S1024x16x2x256, .f32⟩
  | 35 => ⟨S_, .f32⟩
  | 36 => ⟨S1024x16x2, .f32⟩
  | 37 => ⟨S_, .f32⟩
  | 38 => ⟨S1024x16x2, .f32⟩
  | 39 => ⟨S1024x16x2, .f32⟩
  | 40 => ⟨S_, .f32⟩
  | 41 => ⟨S1024x16x2, .f32⟩
  | 42 => ⟨S1024x16x2, .f32⟩
  | 43 => ⟨S1024x16x2x1, .f32⟩
  | 44 => ⟨S1024x16x2x1, .f32⟩
  | 45 => ⟨S1024x16x2x2, .f32⟩
  | 46 => ⟨S1024x16x2x1, .f32⟩
  | 47 => ⟨S1024x16x2x2, .f32⟩
  | 48 => ⟨S1024x16x2x2, .f32⟩
  | 49 => ⟨S1024x16x4, .f32⟩
  | 50 => ⟨S1024x16x1x512, .f32⟩
  | 51 => ⟨S1024x16x512, .f32⟩
  | 52 => ⟨S1024x16x4x128, .f32⟩
  | 53 => ⟨S_, .f32⟩
  | 54 => ⟨S1024x16x4, .f32⟩
  | 55 => ⟨S_, .f32⟩
  | 56 => ⟨S1024x16x4, .f32⟩
  | 57 => ⟨S1024x16x4, .f32⟩
  | 58 => ⟨S_, .f32⟩
  | 59 => ⟨S1024x16x4, .f32⟩
  | 60 => ⟨S1024x16x4, .f32⟩
  | 61 => ⟨S1024x16x4x1, .f32⟩
  | 62 => ⟨S1024x16x4x1, .f32⟩
  | 63 => ⟨S1024x16x4x2, .f32⟩
  | 64 => ⟨S1024x16x4x1, .f32⟩
  | 65 => ⟨S1024x16x4x2, .f32⟩
  | 66 => ⟨S1024x16x4x2, .f32⟩
  | 67 => ⟨S1024x16x8, .f32⟩
  | 68 => ⟨S1024x16x1x512, .f32⟩
  | 69 => ⟨S1024x16x512, .f32⟩
  | 70 => ⟨S1024x16x8x64, .f32⟩
  | 71 => ⟨S_, .f32⟩
  | 72 => ⟨S1024x16x8, .f32⟩
  | 73 => ⟨S_, .f32⟩
  | 74 => ⟨S1024x16x8, .f32⟩
  | 75 => ⟨S1024x16x8, .f32⟩
  | 76 => ⟨S_, .f32⟩
  | 77 => ⟨S1024x16x8, .f32⟩
  | 78 => ⟨S1024x16x8, .f32⟩
  | 79 => ⟨S1024x16x8x1, .f32⟩
  | 80 => ⟨S1024x16x8x1, .f32⟩
  | 81 => ⟨S1024x16x8x2, .f32⟩
  | 82 => ⟨S1024x16x8x1, .f32⟩
  | 83 => ⟨S1024x16x8x2, .f32⟩
  | 84 => ⟨S1024x16x8x2, .f32⟩
  | 85 => ⟨S1024x16x16, .f32⟩
  | 86 => ⟨S1024x16x1x512, .f32⟩
  | 87 => ⟨S1024x16x512, .f32⟩
  | 88 => ⟨S1024x16x16x32, .f32⟩
  | 89 => ⟨S_, .f32⟩
  | 90 => ⟨S1024x16x16, .f32⟩
  | 91 => ⟨S_, .f32⟩
  | 92 => ⟨S1024x16x16, .f32⟩
  | 93 => ⟨S1024x16x16, .f32⟩
  | 94 => ⟨S_, .f32⟩
  | 95 => ⟨S1024x16x16, .f32⟩
  | 96 => ⟨S1024x16x16, .f32⟩
  | 97 => ⟨S1024x16x16x1, .f32⟩
  | 98 => ⟨S1024x16x16x1, .f32⟩
  | 99 => ⟨S1024x16x16x2, .f32⟩
  | 100 => ⟨S1024x16x16x1, .f32⟩
  | 101 => ⟨S1024x16x16x2, .f32⟩
  | 102 => ⟨S1024x16x16x2, .f32⟩
  | 103 => ⟨S1024x16x32, .f32⟩
  | 104 => ⟨S1024x16x1x512, .f32⟩
  | 105 => ⟨S1024x16x512, .f32⟩
  | 106 => ⟨S1024x16x32x16, .f32⟩
  | 107 => ⟨S_, .f32⟩
  | 108 => ⟨S1024x16x32, .f32⟩
  | 109 => ⟨S_, .f32⟩
  | 110 => ⟨S1024x16x32, .f32⟩
  | 111 => ⟨S1024x16x32, .f32⟩
  | 112 => ⟨S_, .f32⟩
  | 113 => ⟨S1024x16x32, .f32⟩
  | 114 => ⟨S1024x16x32, .f32⟩
  | 115 => ⟨S1024x16x32x1, .f32⟩
  | 116 => ⟨S1024x16x32x1, .f32⟩
  | 117 => ⟨S1024x16x32x2, .f32⟩
  | 118 => ⟨S1024x16x32x1, .f32⟩
  | 119 => ⟨S1024x16x32x2, .f32⟩
  | 120 => ⟨S1024x16x32x2, .f32⟩
  | 121 => ⟨S1024x16x64, .f32⟩
  | 122 => ⟨S1024x16x1x512, .f32⟩
  | 123 => ⟨S1024x16x512, .f32⟩
  | 124 => ⟨S1024x16x64x8, .f32⟩
  | 125 => ⟨S_, .f32⟩
  | 126 => ⟨S1024x16x64, .f32⟩
  | 127 => ⟨S_, .f32⟩
  | _ => ⟨S1024x81920, .f32⟩

abbrev hbmTy0_1 (i : Nat) : BufTy := match i % 128 with
  | 0 => ⟨S1024x16x64, .f32⟩
  | 1 => ⟨S1024x16x64, .f32⟩
  | 2 => ⟨S_, .f32⟩
  | 3 => ⟨S1024x16x64, .f32⟩
  | 4 => ⟨S1024x16x64, .f32⟩
  | 5 => ⟨S1024x16x64x1, .f32⟩
  | 6 => ⟨S1024x16x64x1, .f32⟩
  | 7 => ⟨S1024x16x64x2, .f32⟩
  | 8 => ⟨S1024x16x64x1, .f32⟩
  | 9 => ⟨S1024x16x64x2, .f32⟩
  | 10 => ⟨S1024x16x64x2, .f32⟩
  | 11 => ⟨S1024x16x128, .f32⟩
  | 12 => ⟨S1024x16x1x512, .f32⟩
  | 13 => ⟨S1024x16x512, .f32⟩
  | 14 => ⟨S1024x16x128x4, .f32⟩
  | 15 => ⟨S_, .f32⟩
  | 16 => ⟨S1024x16x128, .f32⟩
  | 17 => ⟨S_, .f32⟩
  | 18 => ⟨S1024x16x128, .f32⟩
  | 19 => ⟨S1024x16x128, .f32⟩
  | 20 => ⟨S_, .f32⟩
  | 21 => ⟨S1024x16x128, .f32⟩
  | 22 => ⟨S1024x16x128, .f32⟩
  | 23 => ⟨S1024x16x128x1, .f32⟩
  | 24 => ⟨S1024x16x128x1, .f32⟩
  | 25 => ⟨S1024x16x128x2, .f32⟩
  | 26 => ⟨S1024x16x128x1, .f32⟩
  | 27 => ⟨S1024x16x128x2, .f32⟩
  | 28 => ⟨S1024x16x128x2, .f32⟩
  | 29 => ⟨S1024x16x256, .f32⟩
  | 30 => ⟨S1024x16x1x512, .f32⟩
  | 31 => ⟨S1024x16x512, .f32⟩
  | 32 => ⟨S1024x16x256x2, .f32⟩
  | 33 => ⟨S_, .f32⟩
  | 34 => ⟨S1024x16x256, .f32⟩
  | 35 => ⟨S_, .f32⟩
  | 36 => ⟨S1024x16x256, .f32⟩
  | 37 => ⟨S1024x16x256, .f32⟩
  | 38 => ⟨S_, .f32⟩
  | 39 => ⟨S1024x16x256, .f32⟩
  | 40 => ⟨S1024x16x256, .f32⟩
  | 41 => ⟨S1024x16x256x1, .f32⟩
  | 42 => ⟨S1024x16x256x1, .f32⟩
  | 43 => ⟨S1024x16x256x2, .f32⟩
  | 44 => ⟨S1024x16x256x1, .f32⟩
  | 45 => ⟨S1024x16x256x2, .f32⟩
  | 46 => ⟨S1024x16x256x2, .f32⟩
  | 47 => ⟨S1024x16x512, .f32⟩
  | 48 => ⟨S1024x16x1x512, .f32⟩
  | 49 => ⟨S1024x16x512, .f32⟩
  | 50 => ⟨S1024x16x512x1, .f32⟩
  | 51 => ⟨S_, .f32⟩
  | 52 => ⟨S1024x16x512, .f32⟩
  | 53 => ⟨S_, .f32⟩
  | 54 => ⟨S1024x16x512, .f32⟩
  | 55 => ⟨S1024x16x512, .f32⟩
  | 56 => ⟨S_, .f32⟩
  | 57 => ⟨S1024x16x512, .f32⟩
  | 58 => ⟨S1024x16x512, .f32⟩
  | 59 => ⟨S1024x16x512x1, .f32⟩
  | 60 => ⟨S1024x16x512x1, .f32⟩
  | 61 => ⟨S1024x16x512x2, .f32⟩
  | 62 => ⟨S1024x16x512x1, .f32⟩
  | 63 => ⟨S1024x16x512x2, .f32⟩
  | 64 => ⟨S1024x16x512x2, .f32⟩
  | 65 => ⟨S1024x16x1024, .f32⟩
  | 66 => ⟨S_, .f32⟩
  | 67 => ⟨S1024x16x2, .f32⟩
  | 68 => ⟨S1024x16x1, .f32⟩
  | 69 => ⟨S1024x16, .f32⟩
  | _ => ⟨S1024x81920, .f32⟩

abbrev hbmTy (i : Nat) : BufTy := match i / 128 with
  | 0 => hbmTy0_0 i
  | 1 => hbmTy0_1 i
  | _ => ⟨S1024x81920, .f32⟩

abbrev bufTy : (tb : Table) → Fin (tcTables nBuf tb) → BufTy
  | .hbm, ⟨i, _⟩ => hbmTy i
  | _, _ => ⟨S1024x81920, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_1 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_2 : Ref sig .tc := ⟨.hbm, 17, rfl⟩
abbrev main_v13 : Ref sig .tc := ⟨.hbm, 18, rfl⟩
abbrev main_cst_3 : Ref sig .tc := ⟨.hbm, 19, rfl⟩
abbrev main_v14 : Ref sig .tc := ⟨.hbm, 20, rfl⟩
abbrev main_v15 : Ref sig .tc := ⟨.hbm, 21, rfl⟩
abbrev main_cst_4 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_5 : Ref sig .tc := ⟨.hbm, 35, rfl⟩
abbrev main_v28 : Ref sig .tc := ⟨.hbm, 36, rfl⟩
abbrev main_cst_6 : Ref sig .tc := ⟨.hbm, 37, rfl⟩
abbrev main_v29 : Ref sig .tc := ⟨.hbm, 38, rfl⟩
abbrev main_v30 : Ref sig .tc := ⟨.hbm, 39, rfl⟩
abbrev main_cst_7 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_8 : Ref sig .tc := ⟨.hbm, 53, rfl⟩
abbrev main_v43 : Ref sig .tc := ⟨.hbm, 54, rfl⟩
abbrev main_cst_9 : Ref sig .tc := ⟨.hbm, 55, rfl⟩
abbrev main_v44 : Ref sig .tc := ⟨.hbm, 56, rfl⟩
abbrev main_v45 : Ref sig .tc := ⟨.hbm, 57, rfl⟩
abbrev main_cst_10 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_cst_11 : Ref sig .tc := ⟨.hbm, 71, rfl⟩
abbrev main_v58 : Ref sig .tc := ⟨.hbm, 72, rfl⟩
abbrev main_cst_12 : Ref sig .tc := ⟨.hbm, 73, rfl⟩
abbrev main_v59 : Ref sig .tc := ⟨.hbm, 74, rfl⟩
abbrev main_v60 : Ref sig .tc := ⟨.hbm, 75, rfl⟩
abbrev main_cst_13 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_cst_14 : Ref sig .tc := ⟨.hbm, 89, rfl⟩
abbrev main_v73 : Ref sig .tc := ⟨.hbm, 90, rfl⟩
abbrev main_cst_15 : Ref sig .tc := ⟨.hbm, 91, rfl⟩
abbrev main_v74 : Ref sig .tc := ⟨.hbm, 92, rfl⟩
abbrev main_v75 : Ref sig .tc := ⟨.hbm, 93, rfl⟩
abbrev main_cst_16 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_cst_17 : Ref sig .tc := ⟨.hbm, 107, rfl⟩
abbrev main_v88 : Ref sig .tc := ⟨.hbm, 108, rfl⟩
abbrev main_cst_18 : Ref sig .tc := ⟨.hbm, 109, rfl⟩
abbrev main_v89 : Ref sig .tc := ⟨.hbm, 110, rfl⟩
abbrev main_v90 : Ref sig .tc := ⟨.hbm, 111, rfl⟩
abbrev main_cst_19 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_cst_20 : Ref sig .tc := ⟨.hbm, 125, rfl⟩
abbrev main_v103 : Ref sig .tc := ⟨.hbm, 126, rfl⟩
abbrev main_cst_21 : Ref sig .tc := ⟨.hbm, 127, rfl⟩
abbrev main_v104 : Ref sig .tc := ⟨.hbm, 128, rfl⟩
abbrev main_v105 : Ref sig .tc := ⟨.hbm, 129, rfl⟩
abbrev main_cst_22 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_cst_23 : Ref sig .tc := ⟨.hbm, 143, rfl⟩
abbrev main_v118 : Ref sig .tc := ⟨.hbm, 144, rfl⟩
abbrev main_cst_24 : Ref sig .tc := ⟨.hbm, 145, rfl⟩
abbrev main_v119 : Ref sig .tc := ⟨.hbm, 146, rfl⟩
abbrev main_v120 : Ref sig .tc := ⟨.hbm, 147, rfl⟩
abbrev main_cst_25 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_cst_26 : Ref sig .tc := ⟨.hbm, 161, rfl⟩
abbrev main_v133 : Ref sig .tc := ⟨.hbm, 162, rfl⟩
abbrev main_cst_27 : Ref sig .tc := ⟨.hbm, 163, rfl⟩
abbrev main_v134 : Ref sig .tc := ⟨.hbm, 164, rfl⟩
abbrev main_v135 : Ref sig .tc := ⟨.hbm, 165, rfl⟩
abbrev main_cst_28 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_cst_29 : Ref sig .tc := ⟨.hbm, 179, rfl⟩
abbrev main_v148 : Ref sig .tc := ⟨.hbm, 180, rfl⟩
abbrev main_cst_30 : Ref sig .tc := ⟨.hbm, 181, rfl⟩
abbrev main_v149 : Ref sig .tc := ⟨.hbm, 182, rfl⟩
abbrev main_v150 : Ref sig .tc := ⟨.hbm, 183, rfl⟩
abbrev main_cst_31 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_cst_32 : Ref sig .tc := ⟨.hbm, 194, rfl⟩
abbrev main_v160 : Ref sig .tc := ⟨.hbm, 195, rfl⟩
abbrev main_v161 : Ref sig .tc := ⟨.hbm, 196, rfl⟩
abbrev main_v162 : Ref sig .tc := ⟨.hbm, 197, rfl⟩

abbrev nD : Nat := 1
abbrev τ : Topo := Topo.v7x

variable {F : FTy → Type} [FloatOps F]

class Facts₀ : Prop where
  shapeCasts_S1024x81920_S1024x16x10x512 : S1024x81920.ShapeCasts S1024x16x10x512
  bcast_S_S1024x16x10x512 : S_.BroadcastsInDim S1024x16x10x512 (![] : Fin 0 → Fin S1024x16x10x512.rank)
  slices_S1024x16x10x512_S1024x16x1x1_0_0_0_0 : S1024x16x10x512.Slices ![0, 0, 0, 0] S1024x16x1x1
  shapeCasts_S1024x16x1x1_S1024x16x1 : S1024x16x1x1.ShapeCasts S1024x16x1
  bcast_S_S1024x16x1 : S_.BroadcastsInDim S1024x16x1 (![] : Fin 0 → Fin S1024x16x1.rank)
  slices_S1024x16x10x512_S1024x16x1x512_0_0_0_0 : S1024x16x10x512.Slices ![0, 0, 0, 0] S1024x16x1x512
  shapeCasts_S1024x16x1x512_S1024x16x512 : S1024x16x1x512.ShapeCasts S1024x16x512
  shapeCasts_S1024x16x512_S1024x16x1x512 : S1024x16x512.ShapeCasts S1024x16x1x512
  reducesTo_S1024x16x1x512_S1024x16x1_d3 : S1024x16x1x512.ReducesTo [3] S1024x16x1
  h_S_ : 0 < S_.numel
  bcast_S1024x16x1_S1024x16x1x1_0_1_2 : S1024x16x1.BroadcastsInDim S1024x16x1x1 (![0, 1, 2] : Fin 3 → Fin S1024x16x1x1.rank)
  concatenates_S1024x16x1x1_S1024x16x1x1_S1024x16x1x2_d3 : Shape.Concatenates [S1024x16x1x1, S1024x16x1x1] S1024x16x1x2 3
  bcast_S1024x16x1x1_S1024x16x1x2_0_1_2_3 : S1024x16x1x1.BroadcastsInDim S1024x16x1x2 (![0, 1, 2, 3] : Fin 4 → Fin S1024x16x1x2.rank)
  shapeCasts_S1024x16x1x2_S1024x16x2 : S1024x16x1x2.ShapeCasts S1024x16x2
  slices_S1024x16x10x512_S1024x16x1x512_0_0_1_0 : S1024x16x10x512.Slices ![0, 0, 1, 0] S1024x16x1x512
  shapeCasts_S1024x16x512_S1024x16x2x256 : S1024x16x512.ShapeCasts S1024x16x2x256
  reducesTo_S1024x16x2x256_S1024x16x2_d3 : S1024x16x2x256.ReducesTo [3] S1024x16x2
  bcast_S_S1024x16x2 : S_.BroadcastsInDim S1024x16x2 (![] : Fin 0 → Fin S1024x16x2.rank)
  bcast_S1024x16x2_S1024x16x2x1_0_1_2 : S1024x16x2.BroadcastsInDim S1024x16x2x1 (![0, 1, 2] : Fin 3 → Fin S1024x16x2x1.rank)
  concatenates_S1024x16x2x1_S1024x16x2x1_S1024x16x2x2_d3 : Shape.Concatenates [S1024x16x2x1, S1024x16x2x1] S1024x16x2x2 3
  bcast_S1024x16x2x1_S1024x16x2x2_0_1_2_3 : S1024x16x2x1.BroadcastsInDim S1024x16x2x2 (![0, 1, 2, 3] : Fin 4 → Fin S1024x16x2x2.rank)
  shapeCasts_S1024x16x2x2_S1024x16x4 : S1024x16x2x2.ShapeCasts S1024x16x4
  slices_S1024x16x10x512_S1024x16x1x512_0_0_2_0 : S1024x16x10x512.Slices ![0, 0, 2, 0] S1024x16x1x512
  shapeCasts_S1024x16x512_S1024x16x4x128 : S1024x16x512.ShapeCasts S1024x16x4x128
  reducesTo_S1024x16x4x128_S1024x16x4_d3 : S1024x16x4x128.ReducesTo [3] S1024x16x4
  bcast_S_S1024x16x4 : S_.BroadcastsInDim S1024x16x4 (![] : Fin 0 → Fin S1024x16x4.rank)
  bcast_S1024x16x4_S1024x16x4x1_0_1_2 : S1024x16x4.BroadcastsInDim S1024x16x4x1 (![0, 1, 2] : Fin 3 → Fin S1024x16x4x1.rank)
  concatenates_S1024x16x4x1_S1024x16x4x1_S1024x16x4x2_d3 : Shape.Concatenates [S1024x16x4x1, S1024x16x4x1] S1024x16x4x2 3
  bcast_S1024x16x4x1_S1024x16x4x2_0_1_2_3 : S1024x16x4x1.BroadcastsInDim S1024x16x4x2 (![0, 1, 2, 3] : Fin 4 → Fin S1024x16x4x2.rank)
  shapeCasts_S1024x16x4x2_S1024x16x8 : S1024x16x4x2.ShapeCasts S1024x16x8
  slices_S1024x16x10x512_S1024x16x1x512_0_0_3_0 : S1024x16x10x512.Slices ![0, 0, 3, 0] S1024x16x1x512
  shapeCasts_S1024x16x512_S1024x16x8x64 : S1024x16x512.ShapeCasts S1024x16x8x64
  reducesTo_S1024x16x8x64_S1024x16x8_d3 : S1024x16x8x64.ReducesTo [3] S1024x16x8
  bcast_S_S1024x16x8 : S_.BroadcastsInDim S1024x16x8 (![] : Fin 0 → Fin S1024x16x8.rank)
  bcast_S1024x16x8_S1024x16x8x1_0_1_2 : S1024x16x8.BroadcastsInDim S1024x16x8x1 (![0, 1, 2] : Fin 3 → Fin S1024x16x8x1.rank)
  concatenates_S1024x16x8x1_S1024x16x8x1_S1024x16x8x2_d3 : Shape.Concatenates [S1024x16x8x1, S1024x16x8x1] S1024x16x8x2 3
  bcast_S1024x16x8x1_S1024x16x8x2_0_1_2_3 : S1024x16x8x1.BroadcastsInDim S1024x16x8x2 (![0, 1, 2, 3] : Fin 4 → Fin S1024x16x8x2.rank)
  shapeCasts_S1024x16x8x2_S1024x16x16 : S1024x16x8x2.ShapeCasts S1024x16x16
  slices_S1024x16x10x512_S1024x16x1x512_0_0_4_0 : S1024x16x10x512.Slices ![0, 0, 4, 0] S1024x16x1x512
  shapeCasts_S1024x16x512_S1024x16x16x32 : S1024x16x512.ShapeCasts S1024x16x16x32
  reducesTo_S1024x16x16x32_S1024x16x16_d3 : S1024x16x16x32.ReducesTo [3] S1024x16x16
  bcast_S_S1024x16x16 : S_.BroadcastsInDim S1024x16x16 (![] : Fin 0 → Fin S1024x16x16.rank)
  bcast_S1024x16x16_S1024x16x16x1_0_1_2 : S1024x16x16.BroadcastsInDim S1024x16x16x1 (![0, 1, 2] : Fin 3 → Fin S1024x16x16x1.rank)
  concatenates_S1024x16x16x1_S1024x16x16x1_S1024x16x16x2_d3 : Shape.Concatenates [S1024x16x16x1, S1024x16x16x1] S1024x16x16x2 3
  bcast_S1024x16x16x1_S1024x16x16x2_0_1_2_3 : S1024x16x16x1.BroadcastsInDim S1024x16x16x2 (![0, 1, 2, 3] : Fin 4 → Fin S1024x16x16x2.rank)
  shapeCasts_S1024x16x16x2_S1024x16x32 : S1024x16x16x2.ShapeCasts S1024x16x32
  slices_S1024x16x10x512_S1024x16x1x512_0_0_5_0 : S1024x16x10x512.Slices ![0, 0, 5, 0] S1024x16x1x512
  shapeCasts_S1024x16x512_S1024x16x32x16 : S1024x16x512.ShapeCasts S1024x16x32x16
  reducesTo_S1024x16x32x16_S1024x16x32_d3 : S1024x16x32x16.ReducesTo [3] S1024x16x32
  bcast_S_S1024x16x32 : S_.BroadcastsInDim S1024x16x32 (![] : Fin 0 → Fin S1024x16x32.rank)
  bcast_S1024x16x32_S1024x16x32x1_0_1_2 : S1024x16x32.BroadcastsInDim S1024x16x32x1 (![0, 1, 2] : Fin 3 → Fin S1024x16x32x1.rank)
  concatenates_S1024x16x32x1_S1024x16x32x1_S1024x16x32x2_d3 : Shape.Concatenates [S1024x16x32x1, S1024x16x32x1] S1024x16x32x2 3
  bcast_S1024x16x32x1_S1024x16x32x2_0_1_2_3 : S1024x16x32x1.BroadcastsInDim S1024x16x32x2 (![0, 1, 2, 3] : Fin 4 → Fin S1024x16x32x2.rank)
  shapeCasts_S1024x16x32x2_S1024x16x64 : S1024x16x32x2.ShapeCasts S1024x16x64
  slices_S1024x16x10x512_S1024x16x1x512_0_0_6_0 : S1024x16x10x512.Slices ![0, 0, 6, 0] S1024x16x1x512
  shapeCasts_S1024x16x512_S1024x16x64x8 : S1024x16x512.ShapeCasts S1024x16x64x8
  reducesTo_S1024x16x64x8_S1024x16x64_d3 : S1024x16x64x8.ReducesTo [3] S1024x16x64
  bcast_S_S1024x16x64 : S_.BroadcastsInDim S1024x16x64 (![] : Fin 0 → Fin S1024x16x64.rank)
  bcast_S1024x16x64_S1024x16x64x1_0_1_2 : S1024x16x64.BroadcastsInDim S1024x16x64x1 (![0, 1, 2] : Fin 3 → Fin S1024x16x64x1.rank)
  concatenates_S1024x16x64x1_S1024x16x64x1_S1024x16x64x2_d3 : Shape.Concatenates [S1024x16x64x1, S1024x16x64x1] S1024x16x64x2 3
  bcast_S1024x16x64x1_S1024x16x64x2_0_1_2_3 : S1024x16x64x1.BroadcastsInDim S1024x16x64x2 (![0, 1, 2, 3] : Fin 4 → Fin S1024x16x64x2.rank)
  shapeCasts_S1024x16x64x2_S1024x16x128 : S1024x16x64x2.ShapeCasts S1024x16x128
  slices_S1024x16x10x512_S1024x16x1x512_0_0_7_0 : S1024x16x10x512.Slices ![0, 0, 7, 0] S1024x16x1x512
  shapeCasts_S1024x16x512_S1024x16x128x4 : S1024x16x512.ShapeCasts S1024x16x128x4
  reducesTo_S1024x16x128x4_S1024x16x128_d3 : S1024x16x128x4.ReducesTo [3] S1024x16x128
  bcast_S_S1024x16x128 : S_.BroadcastsInDim S1024x16x128 (![] : Fin 0 → Fin S1024x16x128.rank)
  bcast_S1024x16x128_S1024x16x128x1_0_1_2 : S1024x16x128.BroadcastsInDim S1024x16x128x1 (![0, 1, 2] : Fin 3 → Fin S1024x16x128x1.rank)
  concatenates_S1024x16x128x1_S1024x16x128x1_S1024x16x128x2_d3 : Shape.Concatenates [S1024x16x128x1, S1024x16x128x1] S1024x16x128x2 3
  bcast_S1024x16x128x1_S1024x16x128x2_0_1_2_3 : S1024x16x128x1.BroadcastsInDim S1024x16x128x2 (![0, 1, 2, 3] : Fin 4 → Fin S1024x16x128x2.rank)
  shapeCasts_S1024x16x128x2_S1024x16x256 : S1024x16x128x2.ShapeCasts S1024x16x256
  slices_S1024x16x10x512_S1024x16x1x512_0_0_8_0 : S1024x16x10x512.Slices ![0, 0, 8, 0] S1024x16x1x512
  shapeCasts_S1024x16x512_S1024x16x256x2 : S1024x16x512.ShapeCasts S1024x16x256x2
  reducesTo_S1024x16x256x2_S1024x16x256_d3 : S1024x16x256x2.ReducesTo [3] S1024x16x256
  bcast_S_S1024x16x256 : S_.BroadcastsInDim S1024x16x256 (![] : Fin 0 → Fin S1024x16x256.rank)
  bcast_S1024x16x256_S1024x16x256x1_0_1_2 : S1024x16x256.BroadcastsInDim S1024x16x256x1 (![0, 1, 2] : Fin 3 → Fin S1024x16x256x1.rank)
  concatenates_S1024x16x256x1_S1024x16x256x1_S1024x16x256x2_d3 : Shape.Concatenates [S1024x16x256x1, S1024x16x256x1] S1024x16x256x2 3
  bcast_S1024x16x256x1_S1024x16x256x2_0_1_2_3 : S1024x16x256x1.BroadcastsInDim S1024x16x256x2 (![0, 1, 2, 3] : Fin 4 → Fin S1024x16x256x2.rank)
  shapeCasts_S1024x16x256x2_S1024x16x512 : S1024x16x256x2.ShapeCasts S1024x16x512
  slices_S1024x16x10x512_S1024x16x1x512_0_0_9_0 : S1024x16x10x512.Slices ![0, 0, 9, 0] S1024x16x1x512
  shapeCasts_S1024x16x512_S1024x16x512x1 : S1024x16x512.ShapeCasts S1024x16x512x1
  reducesTo_S1024x16x512x1_S1024x16x512_d3 : S1024x16x512x1.ReducesTo [3] S1024x16x512
  bcast_S_S1024x16x512 : S_.BroadcastsInDim S1024x16x512 (![] : Fin 0 → Fin S1024x16x512.rank)
  bcast_S1024x16x512_S1024x16x512x1_0_1_2 : S1024x16x512.BroadcastsInDim S1024x16x512x1 (![0, 1, 2] : Fin 3 → Fin S1024x16x512x1.rank)
  concatenates_S1024x16x512x1_S1024x16x512x1_S1024x16x512x2_d3 : Shape.Concatenates [S1024x16x512x1, S1024x16x512x1] S1024x16x512x2 3
  bcast_S1024x16x512x1_S1024x16x512x2_0_1_2_3 : S1024x16x512x1.BroadcastsInDim S1024x16x512x2 (![0, 1, 2, 3] : Fin 4 → Fin S1024x16x512x2.rank)
  shapeCasts_S1024x16x512x2_S1024x16x1024 : S1024x16x512x2.ShapeCasts S1024x16x1024
  reducesTo_S1024x16x512x2_S1024x16x2_d2 : S1024x16x512x2.ReducesTo [2] S1024x16x2
  slices_S1024x16x2_S1024x16x1_0_0_1 : S1024x16x2.Slices ![0, 0, 1] S1024x16x1
  shapeCasts_S1024x16x1_S1024x16 : S1024x16x1.ShapeCasts S1024x16

variable [Facts₀]

class Facts : Prop extends Facts₀ where

variable [Facts]
-- ==== Proof.TreeSpec.lean ====
/-
  The mathematics of one row, on plain functions.

  A row of the input holds, for each of 16 trees, 10 levels of 512 logits. After the sigmoid, level `i` is cut into
  `n = 2^i` segments of `w = 512 / n` consecutive values; the MEAN of segment `p` is the probability of going right at
  node `p` of that level. The mass reaching a node is the product of the branch probabilities on the way down: node
  `q` of level `i + 1` is child `q % 2` of node `q / 2`, reached with the parent's mass times `1 - mean` (left,
  child 0) or times `mean` (right, child 1). The result for a tree is the total mass of the right children below the
  last level.

  Everything is over the extended reals, and nothing is evaluated: the divisor of each mean and the constant one are
  kept as the float words the programs carry, read by `Ideal.ofBits`.
-/
import Idealize.ShloMosaic.PureOps.Ideal
import Idealize.ShloMosaic.Lib.ValueIdx

noncomputable section

open scoped BigOperators

namespace Cert.Tree

open Idealize.ShloMosaic

/-- Position `k` of segment `p` lies inside the level's 512 values. -/
theorem seg_lt {n w : ℕ} (hw : n * w = 512) (p : Fin n) (k : Fin w) : p.val * w + k.val < 512 := by
  have h1 : (p.val + 1) * w ≤ n * w := Nat.mul_le_mul_right w p.isLt
  rw [hw, Nat.succ_mul] at h1
  have := k.isLt
  omega

/-- The mean of segment `p` of a level's values `s`: the segment's sum divided by the float word `c` (the segment's
    width as a float). -/
def segMean {n w : ℕ} (hw : n * w = 512) (c : BitVec 32) (s : Fin 512 → EReal) (p : Fin n) : EReal :=
  Ideal.div (∑ k : Fin w, s ⟨p.val * w + k.val, seg_lt hw p k⟩) (Ideal.ofBits .f32 c)

/-- The mass sent from node `p` to its child `e`: the node's mass `tf p` times `1 - mean` to the left (`e = 0`), times
    `mean` to the right (`e = 1`). -/
def branch {n w : ℕ} (hw : n * w = 512) (c : BitVec 32) (s : Fin 512 → EReal) (tf : Fin n → EReal) (p : Fin n) (e : Fin 2) :
    EReal :=
  tf p * (if e.val = 0 then Ideal.ofBits .f32 0x3F800000#32 - segMean hw c s p else segMean hw c s p)

/-- The next level's masses from the branch masses: node `q` is child `q % 2` of node `q / 2`. -/
def children {n n2 : ℕ} (hn2 : n2 = 2 * n) (tr : Fin n → Fin 2 → EReal) (q : Fin n2) : EReal :=
  tr ⟨q.val / 2, by have := q.isLt; omega⟩ ⟨q.val % 2, by omega⟩

/-! ## The ten levels of one tree

`s i` are the 512 sigmoid values of level `i`. The masses are pushed down level by level from the root's mass one:
`mass0` is the root, `mass(i+1)` the 2^(i+1) nodes below level `i`, whose segments have width 512 / 2^i (the float
word beside each level is that width). -/

/-- The root's mass: one. -/
def mass0 : Fin 1 → EReal := fun _ => Ideal.ofBits .f32 0x3F800000#32
/-- The masses of the 2 nodes below level 0 (one segment of 512). -/
def mass1 (s : Fin 10 → Fin 512 → EReal) : Fin 2 → EReal :=
  children rfl (branch (n := 1) (w := 512) rfl 0x44000000#32 (s 0) mass0)
/-- The masses of the 4 nodes below level 1 (2 segments of 256). -/
def mass2 (s : Fin 10 → Fin 512 → EReal) : Fin 4 → EReal :=
  children rfl (branch (n := 2) (w := 256) rfl 0x43800000#32 (s 1) (mass1 s))
/-- The masses of the 8 nodes below level 2 (4 segments of 128). -/
def mass3 (s : Fin 10 → Fin 512 → EReal) : Fin 8 → EReal :=
  children rfl (branch (n := 4) (w := 128) rfl 0x43000000#32 (s 2) (mass2 s))
/-- The masses of the 16 nodes below level 3 (8 segments of 64). -/
def mass4 (s : Fin 10 → Fin 512 → EReal) : Fin 16 → EReal :=
  children rfl (branch (n := 8) (w := 64) rfl 0x42800000#32 (s 3) (mass3 s))
/-- The masses of the 32 nodes below level 4 (16 segments of 32). -/
def mass5 (s : Fin 10 → Fin 512 → EReal) : Fin 32 → EReal :=
  children rfl (branch (n := 16) (w := 32) rfl 0x42000000#32 (s 4) (mass4 s))
/-- The masses of the 64 nodes below level 5 (32 segments of 16). -/
def mass6 (s : Fin 10 → Fin 512 → EReal) : Fin 64 → EReal :=
  children rfl (branch (n := 32) (w := 16) rfl 0x41800000#32 (s 5) (mass5 s))
/-- The masses of the 128 nodes below level 6 (64 segments of 8). -/
def mass7 (s : Fin 10 → Fin 512 → EReal) : Fin 128 → EReal :=
  children rfl (branch (n := 64) (w := 8) rfl 0x41000000#32 (s 6) (mass6 s))
/-- The masses of the 256 nodes below level 7 (128 segments of 4). -/
def mass8 (s : Fin 10 → Fin 512 → EReal) : Fin 256 → EReal :=
  children rfl (branch (n := 128) (w := 4) rfl 0x40800000#32 (s 7) (mass7 s))
/-- The masses of the 512 nodes below level 8 (256 segments of 2). -/
def mass9 (s : Fin 10 → Fin 512 → EReal) : Fin 512 → EReal :=
  children rfl (branch (n := 256) (w := 2) rfl 0x40000000#32 (s 8) (mass8 s))

/-- One tree's result: the right children below the last level (512 segments of one value each), summed. -/
def rowOut (s : Fin 10 → Fin 512 → EReal) : EReal :=
  ∑ p : Fin 512, branch (n := 512) (w := 1) rfl 0x3F800000#32 (s 9) (mass9 s) p 1

end Cert.Tree

end
-- ==== Proof.LevelKernel.lean ====
/-
  One level of the tree as the KERNEL computes it, for any batch extent `B` and any cut of the level's 512 values into
  `n` segments of width `w`, read at an index.

  The kernel holds the sigmoids as a [B, 16, 10, 512] vector. For level `i` it slices row `i`, re-lays it as [B, 16, n, w],
  sums the last axis and divides by the width: the segment means (`meanK`). It then puts `1 - mean` and `mean` side by
  side on a new last axis of extent 2 and multiplies by the masses so far, broadcast along that axis: the branch masses
  (`treesK`), which flattened to [B, 16, 2n] are the next level's masses (`levelK`). Read at (b, t, ·) these are the
  row functions `segMean`, `branch` and `children` of row (b, t)'s values.
-/
import Idealize.ShloMosaic.PureOps
import Idealize.ShloMosaic.PureOps.Ideal.Laws
import Idealize.ShloMosaic.Lib.ValueIdx
import Idealize.ShloMosaic.Lib.Pipeline.Value
import proofs.«155742_j82162724372482_1_alg».proof.Proof.TreeSpec

noncomputable section

open scoped BigOperators

namespace Cert.Tree

open Idealize.ShloMosaic Idealize.ShloMosaic.ValueIdx

variable {B n w n2 : ℕ}

/-! ## The segment means -/

/-- The means of level `i`'s `n` segments of width `w`, as the kernel computes them from the sigmoids `sg`. -/
def meanK (i : ℕ) (c : BitVec 32) (sg : FVec Ideal ⟨4, ![B, 16, 10, 512]⟩ .f32)
    (h1 : (⟨4, ![B, 16, 10, 512]⟩ : Shape).Slices ![0, 0, i, 0] ⟨4, ![B, 16, 1, 512]⟩)
    (h2 : (⟨4, ![B, 16, 1, 512]⟩ : Shape).ShapeCasts ⟨3, ![B, 16, 512]⟩)
    (h3 : (⟨3, ![B, 16, 512]⟩ : Shape).ShapeCasts ⟨4, ![B, 16, n, w]⟩)
    (h4 : (⟨4, ![B, 16, n, w]⟩ : Shape).Reduces [3] ⟨3, ![B, 16, n]⟩) : FVec Ideal ⟨3, ![B, 16, n]⟩ .f32 :=
  divf (multiReduction .add [3] ⟨3, ![B, 16, n]⟩
      (shapeCast ⟨4, ![B, 16, n, w]⟩ (shapeCast ⟨3, ![B, 16, 512]⟩
        (extractStridedSlice ⟨4, ![B, 16, 1, 512]⟩ ![0, 0, i, 0] sg h1) h2) h3)
      0x00000000#32 h4 (.inl rfl) rfl)
    (broadcast ⟨3, ![B, 16, n]⟩ (Scalar.ofBits .f32 c))

/-- Level `i`'s row re-laid as segments, read at (b, t, p, k): the sigmoid at (b, t, i, p·w + k). -/
theorem segments_apply (hw : n * w = 512) (i : ℕ) (hi : i < 10) (sg : FVec Ideal ⟨4, ![B, 16, 10, 512]⟩ .f32)
    (h1 : (⟨4, ![B, 16, 10, 512]⟩ : Shape).Slices ![0, 0, i, 0] ⟨4, ![B, 16, 1, 512]⟩)
    (h2 : (⟨4, ![B, 16, 1, 512]⟩ : Shape).ShapeCasts ⟨3, ![B, 16, 512]⟩)
    (h3 : (⟨3, ![B, 16, 512]⟩ : Shape).ShapeCasts ⟨4, ![B, 16, n, w]⟩)
    (b : Fin B) (t : Fin 16) (p : Fin n) (k : Fin w) :
    shapeCast ⟨4, ![B, 16, n, w]⟩ (shapeCast ⟨3, ![B, 16, 512]⟩
        (extractStridedSlice ⟨4, ![B, 16, 1, 512]⟩ ![0, 0, i, 0] sg h1) h2) h3 (ix4 b t p k)
      = sg (ix4 b t ⟨i, hi⟩ ⟨p.val * w + k.val, seg_lt hw p k⟩) := by
  refine (shapeCast_apply _ h3 (ix4 b t p k) (ix3 b t ⟨p.val * w + k.val, seg_lt hw p k⟩) ?_).trans ?_
  · rw [Shape.rowMajor_val_three, Shape.rowMajor_val_four]
    show (b.val * 16 + t.val) * 512 + (p.val * w + k.val) = ((b.val * 16 + t.val) * n + p.val) * w + k.val
    have e : ((b.val * 16 + t.val) * n + p.val) * w = (b.val * 16 + t.val) * 512 + p.val * w := by
      rw [Nat.add_mul, Nat.mul_assoc, hw]
    omega
  refine (shapeCast_apply _ h2 (ix3 b t ⟨p.val * w + k.val, seg_lt hw p k⟩)
    (ix4 b t (0 : Fin 1) ⟨p.val * w + k.val, seg_lt hw p k⟩) ?_).trans ?_
  · rw [Shape.rowMajor_val_three, Shape.rowMajor_val_four]
    show ((b.val * 16 + t.val) * 1 + 0) * 512 + (p.val * w + k.val) = (b.val * 16 + t.val) * 512 + (p.val * w + k.val)
    omega
  refine extractStridedSlice_apply _ sg h1 _ (ix4 b t ⟨i, hi⟩ ⟨p.val * w + k.val, seg_lt hw p k⟩) fun a => ?_
  match a with
  | ⟨0, _⟩ => show b.val = 0 + b.val; omega
  | ⟨1, _⟩ => show t.val = 0 + t.val; omega
  | ⟨2, _⟩ => show i = i + 0; omega
  | ⟨3, _⟩ => show p.val * w + k.val = 0 + (p.val * w + k.val); omega

/-- The kernel's mean of segment `p` of level `i`, for row (b, t), is `segMean` of that row's level-`i` sigmoids. -/
theorem meanK_apply (hw : n * w = 512) (i : ℕ) (hi : i < 10) (c : BitVec 32) (sg : FVec Ideal ⟨4, ![B, 16, 10, 512]⟩ .f32)
    (h1 : (⟨4, ![B, 16, 10, 512]⟩ : Shape).Slices ![0, 0, i, 0] ⟨4, ![B, 16, 1, 512]⟩)
    (h2 : (⟨4, ![B, 16, 1, 512]⟩ : Shape).ShapeCasts ⟨3, ![B, 16, 512]⟩)
    (h3 : (⟨3, ![B, 16, 512]⟩ : Shape).ShapeCasts ⟨4, ![B, 16, n, w]⟩)
    (h4 : (⟨4, ![B, 16, n, w]⟩ : Shape).Reduces [3] ⟨3, ![B, 16, n]⟩)
    (b : Fin B) (t : Fin 16) (p : Fin n) :
    meanK i c sg h1 h2 h3 h4 (ix3 b t p) = segMean hw c (fun k => sg (ix4 b t ⟨i, hi⟩ k)) p := by
  unfold meanK segMean
  rw [divf_apply, broadcast_apply]
  refine congrArg₂ Ideal.div ?_ rfl
  refine (Ideal.multiReduction_add_single _ 0x00000000#32 h4 (.inl rfl) rfl (ix3 b t p)).trans ?_
  show ∑ k : Fin w, _ = ∑ k : Fin w, _
  refine Finset.sum_congr rfl fun k _ => ?_
  have hl : h4.lift (ix3 b t p) k = ix4 b t p k := by
    funext a; refine Fin.ext ?_
    match a with
    | ⟨0, _⟩ => rfl
    | ⟨1, _⟩ => rfl
    | ⟨2, _⟩ => rfl
    | ⟨3, _⟩ => rfl
  rw [hl]
  exact segments_apply hw i hi sg h1 h2 h3 b t p k

/-! ## The branch masses and the next level -/

/-- The branch masses [B, 16, n, 2] from the means `d` and the masses so far `tf`, as the kernel computes them. -/
def treesK (d tf : FVec Ideal ⟨3, ![B, 16, n]⟩ .f32)
    (h5 : (⟨3, ![B, 16, n]⟩ : Shape).ShapeCasts ⟨4, ![B, 16, n, 1]⟩)
    (h6 : Shape.Concatenates [⟨4, ![B, 16, n, 1]⟩, ⟨4, ![B, 16, n, 1]⟩] ⟨4, ![B, 16, n, 2]⟩ 3)
    (h7 : (⟨4, ![B, 16, n, 1]⟩ : Shape).Broadcasts ⟨4, ![B, 16, n, 2]⟩) : FVec Ideal ⟨4, ![B, 16, n, 2]⟩ .f32 :=
  mulf (broadcastTo ⟨4, ![B, 16, n, 2]⟩ (shapeCast ⟨4, ![B, 16, n, 1]⟩ tf h5) h7)
    (concatenate ⟨4, ![B, 16, n, 2]⟩ 3
      [⟨⟨4, ![B, 16, n, 1]⟩, subf (broadcast ⟨4, ![B, 16, n, 1]⟩ (Scalar.ofBits .f32 0x3F800000#32))
          (shapeCast ⟨4, ![B, 16, n, 1]⟩ d h5)⟩,
       ⟨⟨4, ![B, 16, n, 1]⟩, shapeCast ⟨4, ![B, 16, n, 1]⟩ d h5⟩] h6)

/-- A [B, 16, n] vector given a trailing unit axis reads the same entry. -/
theorem column_apply {α : Type} (v : (⟨3, ![B, 16, n]⟩ : Shape).Idx → α)
    (h5 : (⟨3, ![B, 16, n]⟩ : Shape).ShapeCasts ⟨4, ![B, 16, n, 1]⟩) (b : Fin B) (t : Fin 16) (p : Fin n) :
    shapeCast ⟨4, ![B, 16, n, 1]⟩ v h5 (ix4 b t p (0 : Fin 1)) = v (ix3 b t p) := by
  refine shapeCast_apply v h5 _ (ix3 b t p) ?_
  rw [Shape.rowMajor_val_three, Shape.rowMajor_val_four]
  show (b.val * 16 + t.val) * n + p.val = ((b.val * 16 + t.val) * n + p.val) * 1 + 0
  omega

/-- The kernel's branch mass at (b, t, p, e): the mass at node `p` times `1 - mean` (e = 0) or `mean` (e = 1). -/
theorem treesK_apply (d tf : FVec Ideal ⟨3, ![B, 16, n]⟩ .f32)
    (h5 : (⟨3, ![B, 16, n]⟩ : Shape).ShapeCasts ⟨4, ![B, 16, n, 1]⟩)
    (h6 : Shape.Concatenates [⟨4, ![B, 16, n, 1]⟩, ⟨4, ![B, 16, n, 1]⟩] ⟨4, ![B, 16, n, 2]⟩ 3)
    (h7 : (⟨4, ![B, 16, n, 1]⟩ : Shape).Broadcasts ⟨4, ![B, 16, n, 2]⟩)
    (b : Fin B) (t : Fin 16) (p : Fin n) (e : Fin 2) :
    treesK d tf h5 h6 h7 (ix4 b t p e)
      = tf (ix3 b t p) * (if e.val = 0 then Ideal.ofBits .f32 0x3F800000#32 - d (ix3 b t p) else d (ix3 b t p)) := by
  unfold treesK
  rw [mulf_apply]
  refine congrArg₂ (· * ·) ?_ ?_
  · refine (broadcastTo_apply _ h7 (ix4 b t p e) (ix4 b t p (0 : Fin 1)) fun a => ?_).trans (column_apply tf h5 b t p)
    match a with
    | ⟨0, _⟩ => show b.val = if B = 1 then 0 else b.val; split <;> omega
    | ⟨1, _⟩ => rfl
    | ⟨2, _⟩ => show p.val = if n = 1 then 0 else p.val; split <;> omega
    | ⟨3, _⟩ => rfl
  · match e with
    | ⟨0, _⟩ =>
      refine (concatenate_pair_apply_left (t := ⟨4, ![B, 16, n, 2]⟩) (s₁ := ⟨4, ![B, 16, n, 1]⟩) (s₂ := ⟨4, ![B, 16, n, 1]⟩)
        (3 : Fin 4) _ _ h6 (ix4 b t p (0 : Fin 2)) (rfl : (4 : ℕ) = 4) (ix4 b t p (0 : Fin 1)) fun a => ?_).trans ?_
      · match a with
        | ⟨0, _⟩ => rfl
        | ⟨1, _⟩ => rfl
        | ⟨2, _⟩ => rfl
        | ⟨3, _⟩ => rfl
      · rw [subf_apply, broadcast_apply, column_apply d h5 b t p]; rfl
    | ⟨1, _⟩ =>
      refine (concatenate_pair_apply_right (t := ⟨4, ![B, 16, n, 2]⟩) (s₁ := ⟨4, ![B, 16, n, 1]⟩) (s₂ := ⟨4, ![B, 16, n, 1]⟩)
        (3 : Fin 4) _ _ h6 (ix4 b t p (1 : Fin 2)) (rfl : (4 : ℕ) = 4) (rfl : (4 : ℕ) = 4) (ix4 b t p (0 : Fin 1)) (fun a ha => ?_) rfl).trans ?_
      · match a with
        | ⟨0, _⟩ => rfl
        | ⟨1, _⟩ => rfl
        | ⟨2, _⟩ => rfl
        | ⟨3, _⟩ => exact absurd rfl ha
      · rw [column_apply d h5 b t p]; rfl

/-- The next level's masses [B, 16, 2n]: the branch masses flattened. -/
def levelK (d tf : FVec Ideal ⟨3, ![B, 16, n]⟩ .f32)
    (h5 : (⟨3, ![B, 16, n]⟩ : Shape).ShapeCasts ⟨4, ![B, 16, n, 1]⟩)
    (h6 : Shape.Concatenates [⟨4, ![B, 16, n, 1]⟩, ⟨4, ![B, 16, n, 1]⟩] ⟨4, ![B, 16, n, 2]⟩ 3)
    (h7 : (⟨4, ![B, 16, n, 1]⟩ : Shape).Broadcasts ⟨4, ![B, 16, n, 2]⟩)
    (h8 : (⟨4, ![B, 16, n, 2]⟩ : Shape).ShapeCasts ⟨3, ![B, 16, n2]⟩) : FVec Ideal ⟨3, ![B, 16, n2]⟩ .f32 :=
  shapeCast ⟨3, ![B, 16, n2]⟩ (treesK d tf h5 h6 h7) h8

/-- A [B, 16, n, 2] vector flattened to [B, 16, 2n] reads node `q` at (q / 2, q % 2). -/
theorem flatten_apply {α : Type} (hn2 : n2 = 2 * n) (v : (⟨4, ![B, 16, n, 2]⟩ : Shape).Idx → α)
    (h8 : (⟨4, ![B, 16, n, 2]⟩ : Shape).ShapeCasts ⟨3, ![B, 16, n2]⟩) (b : Fin B) (t : Fin 16) (q : Fin n2) :
    shapeCast ⟨3, ![B, 16, n2]⟩ v h8 (ix3 b t q)
      = v (ix4 b t ⟨q.val / 2, by have := q.isLt; omega⟩ ⟨q.val % 2, by omega⟩) := by
  refine shapeCast_apply v h8 _ _ ?_
  rw [Shape.rowMajor_val_three, Shape.rowMajor_val_four]
  show ((b.val * 16 + t.val) * n + q.val / 2) * 2 + q.val % 2 = (b.val * 16 + t.val) * n2 + q.val
  subst hn2
  rw [Nat.add_mul, Nat.mul_assoc, Nat.mul_comm n 2]; omega

/-- The kernel's next-level masses for row (b, t) are the `children` of the row's `branch` masses. -/
theorem levelK_apply (hw : n * w = 512) (hn2 : n2 = 2 * n) (i : ℕ) (hi : i < 10) (c : BitVec 32)
    (sg : FVec Ideal ⟨4, ![B, 16, 10, 512]⟩ .f32) (tf : FVec Ideal ⟨3, ![B, 16, n]⟩ .f32)
    (h1 : (⟨4, ![B, 16, 10, 512]⟩ : Shape).Slices ![0, 0, i, 0] ⟨4, ![B, 16, 1, 512]⟩)
    (h2 : (⟨4, ![B, 16, 1, 512]⟩ : Shape).ShapeCasts ⟨3, ![B, 16, 512]⟩)
    (h3 : (⟨3, ![B, 16, 512]⟩ : Shape).ShapeCasts ⟨4, ![B, 16, n, w]⟩)
    (h4 : (⟨4, ![B, 16, n, w]⟩ : Shape).Reduces [3] ⟨3, ![B, 16, n]⟩)
    (h5 : (⟨3, ![B, 16, n]⟩ : Shape).ShapeCasts ⟨4, ![B, 16, n, 1]⟩)
    (h6 : Shape.Concatenates [⟨4, ![B, 16, n, 1]⟩, ⟨4, ![B, 16, n, 1]⟩] ⟨4, ![B, 16, n, 2]⟩ 3)
    (h7 : (⟨4, ![B, 16, n, 1]⟩ : Shape).Broadcasts ⟨4, ![B, 16, n, 2]⟩)
    (h8 : (⟨4, ![B, 16, n, 2]⟩ : Shape).ShapeCasts ⟨3, ![B, 16, n2]⟩)
    (b : Fin B) (t : Fin 16) (q : Fin n2) :
    levelK (meanK i c sg h1 h2 h3 h4) tf h5 h6 h7 h8 (ix3 b t q)
      = children hn2 (branch hw c (fun k => sg (ix4 b t ⟨i, hi⟩ k)) (fun p => tf (ix3 b t p))) q := by
  unfold levelK children branch
  rw [flatten_apply hn2, treesK_apply, meanK_apply hw i hi]

/-- The kernel's branch masses of the last level for row (b, t) are the row's `branch` masses. -/
theorem treesK_mean_apply (hw : n * w = 512) (i : ℕ) (hi : i < 10) (c : BitVec 32)
    (sg : FVec Ideal ⟨4, ![B, 16, 10, 512]⟩ .f32) (tf : FVec Ideal ⟨3, ![B, 16, n]⟩ .f32)
    (h1 : (⟨4, ![B, 16, 10, 512]⟩ : Shape).Slices ![0, 0, i, 0] ⟨4, ![B, 16, 1, 512]⟩)
    (h2 : (⟨4, ![B, 16, 1, 512]⟩ : Shape).ShapeCasts ⟨3, ![B, 16, 512]⟩)
    (h3 : (⟨3, ![B, 16, 512]⟩ : Shape).ShapeCasts ⟨4, ![B, 16, n, w]⟩)
    (h4 : (⟨4, ![B, 16, n, w]⟩ : Shape).Reduces [3] ⟨3, ![B, 16, n]⟩)
    (h5 : (⟨3, ![B, 16, n]⟩ : Shape).ShapeCasts ⟨4, ![B, 16, n, 1]⟩)
    (h6 : Shape.Concatenates [⟨4, ![B, 16, n, 1]⟩, ⟨4, ![B, 16, n, 1]⟩] ⟨4, ![B, 16, n, 2]⟩ 3)
    (h7 : (⟨4, ![B, 16, n, 1]⟩ : Shape).Broadcasts ⟨4, ![B, 16, n, 2]⟩)
    (b : Fin B) (t : Fin 16) (p : Fin n) (e : Fin 2) :
    treesK (meanK i c sg h1 h2 h3 h4) tf h5 h6 h7 (ix4 b t p e)
      = branch hw c (fun k => sg (ix4 b t ⟨i, hi⟩ k)) (fun p => tf (ix3 b t p)) p e := by
  unfold branch
  rw [treesK_apply, meanK_apply hw i hi]

/-- `levelK_apply` with the row's values named: if row (b, t)'s level-`i` sigmoids are `s` and its masses so far `tfr`,
    the kernel's next-level masses of that row are `children (branch s tfr)`. -/
theorem levelK_row (hw : n * w = 512) (hn2 : n2 = 2 * n) (i : ℕ) (hi : i < 10) (c : BitVec 32)
    (sg : FVec Ideal ⟨4, ![B, 16, 10, 512]⟩ .f32) (tf : FVec Ideal ⟨3, ![B, 16, n]⟩ .f32)
    (h1 : (⟨4, ![B, 16, 10, 512]⟩ : Shape).Slices ![0, 0, i, 0] ⟨4, ![B, 16, 1, 512]⟩)
    (h2 : (⟨4, ![B, 16, 1, 512]⟩ : Shape).ShapeCasts ⟨3, ![B, 16, 512]⟩)
    (h3 : (⟨3, ![B, 16, 512]⟩ : Shape).ShapeCasts ⟨4, ![B, 16, n, w]⟩)
    (h4 : (⟨4, ![B, 16, n, w]⟩ : Shape).Reduces [3] ⟨3, ![B, 16, n]⟩)
    (h5 : (⟨3, ![B, 16, n]⟩ : Shape).ShapeCasts ⟨4, ![B, 16, n, 1]⟩)
    (h6 : Shape.Concatenates [⟨4, ![B, 16, n, 1]⟩, ⟨4, ![B, 16, n, 1]⟩] ⟨4, ![B, 16, n, 2]⟩ 3)
    (h7 : (⟨4, ![B, 16, n, 1]⟩ : Shape).Broadcasts ⟨4, ![B, 16, n, 2]⟩)
    (h8 : (⟨4, ![B, 16, n, 2]⟩ : Shape).ShapeCasts ⟨3, ![B, 16, n2]⟩)
    (b : Fin B) (t : Fin 16) (s : Fin 512 → EReal) (tfr : Fin n → EReal)
    (hs : ∀ k, sg (ix4 b t ⟨i, hi⟩ k) = s k) (htf : ∀ p, tf (ix3 b t p) = tfr p) (q : Fin n2) :
    levelK (meanK i c sg h1 h2 h3 h4) tf h5 h6 h7 h8 (ix3 b t q) = children hn2 (branch hw c s tfr) q := by
  rw [levelK_apply hw hn2 i hi, show (fun k => sg (ix4 b t ⟨i, hi⟩ k)) = s from funext hs,
    show (fun p => tf (ix3 b t p)) = tfr from funext htf]

/-! ## The result: the right children below the last level, summed -/

/-- The total of the last level's branch masses over the nodes, of which the right children's column is kept:
    the kernel's last three operations. -/
def outK (tr : FVec Ideal ⟨4, ![B, 16, n, 2]⟩ .f32)
    (hR : (⟨4, ![B, 16, n, 2]⟩ : Shape).Reduces [2] ⟨3, ![B, 16, 2]⟩)
    (hs : (⟨3, ![B, 16, 2]⟩ : Shape).Slices ![0, 0, 1] ⟨3, ![B, 16, 1]⟩)
    (hc : (⟨3, ![B, 16, 1]⟩ : Shape).ShapeCasts ⟨2, ![B, 16]⟩) : FVec Ideal ⟨2, ![B, 16]⟩ .f32 :=
  shapeCast ⟨2, ![B, 16]⟩ (extractStridedSlice ⟨3, ![B, 16, 1]⟩ ![0, 0, 1]
    (multiReduction .add [2] ⟨3, ![B, 16, 2]⟩ tr 0x00000000#32 hR (.inl rfl) rfl) hs) hc

/-- A [B, 16, 2] vector's column 1, as [B, 16], reads (b, t, 1). -/
theorem rightColumn_apply {α : Type} (v : (⟨3, ![B, 16, 2]⟩ : Shape).Idx → α)
    (hs : (⟨3, ![B, 16, 2]⟩ : Shape).Slices ![0, 0, 1] ⟨3, ![B, 16, 1]⟩)
    (hc : (⟨3, ![B, 16, 1]⟩ : Shape).ShapeCasts ⟨2, ![B, 16]⟩) (b : Fin B) (t : Fin 16) :
    shapeCast ⟨2, ![B, 16]⟩ (extractStridedSlice ⟨3, ![B, 16, 1]⟩ ![0, 0, 1] v hs) hc (ix2 b t) = v (ix3 b t (1 : Fin 2)) := by
  refine (shapeCast_apply _ hc (ix2 b t) (ix3 b t (0 : Fin 1)) ?_).trans ?_
  · rw [Shape.rowMajor_val_three, Shape.rowMajor_val_two]
    show (b.val * 16 + t.val) * 1 + 0 = b.val * 16 + t.val
    omega
  refine extractStridedSlice_apply _ v hs (ix3 b t (0 : Fin 1)) (ix3 b t (1 : Fin 2)) fun a => ?_
  match a with
  | ⟨0, _⟩ => show b.val = 0 + b.val; omega
  | ⟨1, _⟩ => show t.val = 0 + t.val; omega
  | ⟨2, _⟩ => rfl

/-- The kernel's result at (b, t): the sum over the nodes of the right-child branch masses. -/
theorem outK_apply (tr : FVec Ideal ⟨4, ![B, 16, n, 2]⟩ .f32)
    (hR : (⟨4, ![B, 16, n, 2]⟩ : Shape).Reduces [2] ⟨3, ![B, 16, 2]⟩)
    (hs : (⟨3, ![B, 16, 2]⟩ : Shape).Slices ![0, 0, 1] ⟨3, ![B, 16, 1]⟩)
    (hc : (⟨3, ![B, 16, 1]⟩ : Shape).ShapeCasts ⟨2, ![B, 16]⟩) (b : Fin B) (t : Fin 16) :
    outK tr hR hs hc (ix2 b t) = ∑ p : Fin n, tr (ix4 b t p (1 : Fin 2)) := by
  unfold outK
  rw [rightColumn_apply]
  refine (Ideal.multiReduction_add_single _ 0x00000000#32 hR (.inl rfl) rfl (ix3 b t (1 : Fin 2))).trans ?_
  show ∑ p : Fin n, _ = ∑ p : Fin n, _
  refine Finset.sum_congr rfl fun p _ => congrArg tr ?_
  funext a; refine Fin.ext ?_
  match a with
  | ⟨0, _⟩ => rfl
  | ⟨1, _⟩ => rfl
  | ⟨2, _⟩ => rfl
  | ⟨3, _⟩ => rfl

/-- The kernel's result for row (b, t) from the row's values: the right-child `branch` masses of the last level, summed. -/
theorem outK_row (hw : n * w = 512) (i : ℕ) (hi : i < 10) (c : BitVec 32)
    (sg : FVec Ideal ⟨4, ![B, 16, 10, 512]⟩ .f32) (tf : FVec Ideal ⟨3, ![B, 16, n]⟩ .f32)
    (h1 : (⟨4, ![B, 16, 10, 512]⟩ : Shape).Slices ![0, 0, i, 0] ⟨4, ![B, 16, 1, 512]⟩)
    (h2 : (⟨4, ![B, 16, 1, 512]⟩ : Shape).ShapeCasts ⟨3, ![B, 16, 512]⟩)
    (h3 : (⟨3, ![B, 16, 512]⟩ : Shape).ShapeCasts ⟨4, ![B, 16, n, w]⟩)
    (h4 : (⟨4, ![B, 16, n, w]⟩ : Shape).Reduces [3] ⟨3, ![B, 16, n]⟩)
    (h5 : (⟨3, ![B, 16, n]⟩ : Shape).ShapeCasts ⟨4, ![B, 16, n, 1]⟩)
    (h6 : Shape.Concatenates [⟨4, ![B, 16, n, 1]⟩, ⟨4, ![B, 16, n, 1]⟩] ⟨4, ![B, 16, n, 2]⟩ 3)
    (h7 : (⟨4, ![B, 16, n, 1]⟩ : Shape).Broadcasts ⟨4, ![B, 16, n, 2]⟩)
    (hR : (⟨4, ![B, 16, n, 2]⟩ : Shape).Reduces [2] ⟨3, ![B, 16, 2]⟩)
    (hsl : (⟨3, ![B, 16, 2]⟩ : Shape).Slices ![0, 0, 1] ⟨3, ![B, 16, 1]⟩)
    (hc : (⟨3, ![B, 16, 1]⟩ : Shape).ShapeCasts ⟨2, ![B, 16]⟩)
    (b : Fin B) (t : Fin 16) (s : Fin 512 → EReal) (tfr : Fin n → EReal)
    (hs : ∀ k, sg (ix4 b t ⟨i, hi⟩ k) = s k) (htf : ∀ p, tf (ix3 b t p) = tfr p) :
    outK (treesK (meanK i c sg h1 h2 h3 h4) tf h5 h6 h7) hR hsl hc (ix2 b t) = ∑ p : Fin n, branch hw c s tfr p 1 := by
  rw [outK_apply]
  refine Finset.sum_congr rfl fun p _ => ?_
  rw [treesK_mean_apply hw i hi, show (fun k => sg (ix4 b t ⟨i, hi⟩ k)) = s from funext hs,
    show (fun p => tf (ix3 b t p)) = tfr from funext htf]

end Cert.Tree

end
-- ==== Proof.KernelValue.lean ====
/-
  What the kernel's body writes, entry by entry.

  The body loads a block of 32 rows, takes the sigmoid of all of it as a [32, 16, 10, 512] vector, runs the ten levels
  of the tree and stores the [32, 16] result. The ten levels are named here one by one (`blockMass1` … `blockMass9`, each
  the generic level of LevelKernel.lean at its own cut of 512), the body's payload is shown to be their composition, and
  read at (p, t) it is `rowOut` of the sigmoids of row `p`'s slice for tree `t`.
-/
import proofs.«155742_j82162724372482_1_alg».proof.Proof.Gen.KernelIdeal.Skeleton
import proofs.«155742_j82162724372482_1_alg».proof.Proof.LevelKernel

noncomputable section

open scoped BigOperators

namespace Cert.KernelIdeal.TreeValue

open Idealize.ShloMosaic Idealize.ShloMosaic.ValueIdx Cert.KernelIdeal Cert.KernelIdeal.Gen Cert.Tree

/-! ## The ten levels on a block -/

/-- The root's mass on a block: one everywhere. -/
def blockMass0 : FVec Ideal S32x16x1 .f32 := broadcast S32x16x1 (Scalar.ofBits .f32 0x3F800000#32)

/-- The masses below level 0, from the block's sigmoids `sg`. -/
def blockMass1 (sg : FVec Ideal S32x16x10x512 .f32) : FVec Ideal S32x16x2 .f32 :=
  levelK (meanK 0 0x44000000#32 sg slices_S32x16x10x512_o0_0_0_0_S32x16x1x512 shapeCasts_S32x16x1x512_S32x16x512
      shapeCasts_S32x16x512_S32x16x1x512 reduces_S32x16x1x512_S32x16x1)
    blockMass0 shapeCasts_S32x16x1_S32x16x1x1 concatenates_S32x16x1x1_S32x16x1x1_S32x16x1x2_d3
    broadcasts_S32x16x1x1_S32x16x1x2 shapeCasts_S32x16x1x2_S32x16x2
/-- The masses below level 1. -/
def blockMass2 (sg : FVec Ideal S32x16x10x512 .f32) : FVec Ideal S32x16x4 .f32 :=
  levelK (meanK 1 0x43800000#32 sg slices_S32x16x10x512_o0_0_1_0_S32x16x1x512 shapeCasts_S32x16x1x512_S32x16x512
      shapeCasts_S32x16x512_S32x16x2x256 reduces_S32x16x2x256_S32x16x2)
    (blockMass1 sg) shapeCasts_S32x16x2_S32x16x2x1 concatenates_S32x16x2x1_S32x16x2x1_S32x16x2x2_d3
    broadcasts_S32x16x2x1_S32x16x2x2 shapeCasts_S32x16x2x2_S32x16x4
/-- The masses below level 2. -/
def blockMass3 (sg : FVec Ideal S32x16x10x512 .f32) : FVec Ideal S32x16x8 .f32 :=
  levelK (meanK 2 0x43000000#32 sg slices_S32x16x10x512_o0_0_2_0_S32x16x1x512 shapeCasts_S32x16x1x512_S32x16x512
      shapeCasts_S32x16x512_S32x16x4x128 reduces_S32x16x4x128_S32x16x4)
    (blockMass2 sg) shapeCasts_S32x16x4_S32x16x4x1 concatenates_S32x16x4x1_S32x16x4x1_S32x16x4x2_d3
    broadcasts_S32x16x4x1_S32x16x4x2 shapeCasts_S32x16x4x2_S32x16x8
/-- The masses below level 3. -/
def blockMass4 (sg : FVec Ideal S32x16x10x512 .f32) : FVec Ideal S32x16x16 .f32 :=
  levelK (meanK 3 0x42800000#32 sg slices_S32x16x10x512_o0_0_3_0_S32x16x1x512 shapeCasts_S32x16x1x512_S32x16x512
      shapeCasts_S32x16x512_S32x16x8x64 reduces_S32x16x8x64_S32x16x8)
    (blockMass3 sg) shapeCasts_S32x16x8_S32x16x8x1 concatenates_S32x16x8x1_S32x16x8x1_S32x16x8x2_d3
    broadcasts_S32x16x8x1_S32x16x8x2 shapeCasts_S32x16x8x2_S32x16x16
/-- The masses below level 4. -/
def blockMass5 (sg : FVec Ideal S32x16x10x512 .f32) : FVec Ideal S32x16x32 .f32 :=
  levelK (meanK 4 0x42000000#32 sg slices_S32x16x10x512_o0_0_4_0_S32x16x1x512 shapeCasts_S32x16x1x512_S32x16x512
      shapeCasts_S32x16x512_S32x16x16x32 reduces_S32x16x16x32_S32x16x16)
    (blockMass4 sg) shapeCasts_S32x16x16_S32x16x16x1 concatenates_S32x16x16x1_S32x16x16x1_S32x16x16x2_d3
    broadcasts_S32x16x16x1_S32x16x16x2 shapeCasts_S32x16x16x2_S32x16x32
/-- The masses below level 5. -/
def blockMass6 (sg : FVec Ideal S32x16x10x512 .f32) : FVec Ideal S32x16x64 .f32 :=
  levelK (meanK 5 0x41800000#32 sg slices_S32x16x10x512_o0_0_5_0_S32x16x1x512 shapeCasts_S32x16x1x512_S32x16x512
      shapeCasts_S32x16x512_S32x16x32x16 reduces_S32x16x32x16_S32x16x32)
    (blockMass5 sg) shapeCasts_S32x16x32_S32x16x32x1 concatenates_S32x16x32x1_S32x16x32x1_S32x16x32x2_d3
    broadcasts_S32x16x32x1_S32x16x32x2 shapeCasts_S32x16x32x2_S32x16x64
/-- The masses below level 6. -/
def blockMass7 (sg : FVec Ideal S32x16x10x512 .f32) : FVec Ideal S32x16x128 .f32 :=
  levelK (meanK 6 0x41000000#32 sg slices_S32x16x10x512_o0_0_6_0_S32x16x1x512 shapeCasts_S32x16x1x512_S32x16x512
      shapeCasts_S32x16x512_S32x16x64x8 reduces_S32x16x64x8_S32x16x64)
    (blockMass6 sg) shapeCasts_S32x16x64_S32x16x64x1 concatenates_S32x16x64x1_S32x16x64x1_S32x16x64x2_d3
    broadcasts_S32x16x64x1_S32x16x64x2 shapeCasts_S32x16x64x2_S32x16x128
/-- The masses below level 7. -/
def blockMass8 (sg : FVec Ideal S32x16x10x512 .f32) : FVec Ideal S32x16x256 .f32 :=
  levelK (meanK 7 0x40800000#32 sg slices_S32x16x10x512_o0_0_7_0_S32x16x1x512 shapeCasts_S32x16x1x512_S32x16x512
      shapeCasts_S32x16x512_S32x16x128x4 reduces_S32x16x128x4_S32x16x128)
    (blockMass7 sg) shapeCasts_S32x16x128_S32x16x128x1 concatenates_S32x16x128x1_S32x16x128x1_S32x16x128x2_d3
    broadcasts_S32x16x128x1_S32x16x128x2 shapeCasts_S32x16x128x2_S32x16x256
/-- The masses below level 8. -/
def blockMass9 (sg : FVec Ideal S32x16x10x512 .f32) : FVec Ideal S32x16x512 .f32 :=
  levelK (meanK 8 0x40000000#32 sg slices_S32x16x10x512_o0_0_8_0_S32x16x1x512 shapeCasts_S32x16x1x512_S32x16x512
      shapeCasts_S32x16x512_S32x16x256x2 reduces_S32x16x256x2_S32x16x256)
    (blockMass8 sg) shapeCasts_S32x16x256_S32x16x256x1 concatenates_S32x16x256x1_S32x16x256x1_S32x16x256x2_d3
    broadcasts_S32x16x256x1_S32x16x256x2 shapeCasts_S32x16x256x2_S32x16x512

/-- The block's result: the last level's branch masses, right children summed. -/
def blockOut (sg : FVec Ideal S32x16x10x512 .f32) : FVec Ideal S32x16 .f32 :=
  outK (treesK (meanK 9 0x3F800000#32 sg slices_S32x16x10x512_o0_0_9_0_S32x16x1x512 shapeCasts_S32x16x1x512_S32x16x512
        shapeCasts_S32x16x512_S32x16x512x1 reduces_S32x16x512x1_S32x16x512)
      (blockMass9 sg) shapeCasts_S32x16x512_S32x16x512x1 concatenates_S32x16x512x1_S32x16x512x1_S32x16x512x2_d3
      broadcasts_S32x16x512x1_S32x16x512x2)
    reduces_S32x16x512x2_S32x16x2 slices_S32x16x2_o0_0_1_S32x16x1 shapeCasts_S32x16x1_S32x16

/-! ## The body's payload is that composition -/

/-- What the body stores, as a function of the block `x0` it loads: `blockOut` of the block's sigmoids. The printed
    operations, level by level, are the generic level's. -/
theorem payload_eq (x0 : Vec Ideal S32x81920 .f32) :
    k0_pay1 (k0_pay7 (k0_pay2 x0) (k0_pay5 (k0_pay2 x0) (k0_pay3 x0) (k0_pay4 x0)) (k0_pay6 (k0_pay2 x0))
      (Scalar.ofBits .f32 0x3F800000#32)) = blockOut (k0_pay2 x0) := rfl

/-! ## The payload at an entry -/

/-- The sigmoid vector at (p, t, i, k) is the sigmoid of the block's entry (p, t·5120 + i·512 + k). -/
theorem sigmoid_apply (x0 : Vec Ideal S32x81920 .f32) (p : Fin 32) (t : Fin 16) (i : Fin 10) (k : Fin 512) :
    k0_pay2 x0 (ix4 p t i k)
      = Ideal.logistic (x0 (ix2 p ⟨t.val * 5120 + i.val * 512 + k.val, by omega⟩)) := by
  unfold k0_pay2
  show Ideal.logistic (shapeCast S32x16x10x512 x0 shapeCasts_S32x81920_S32x16x10x512 (ix4 p t i k)) = _
  refine congrArg Ideal.logistic ?_
  refine shapeCast_apply x0 _ _ _ ?_
  rw [Shape.rowMajor_val_two, Shape.rowMajor_val_four]
  show p.val * 81920 + (t.val * 5120 + i.val * 512 + k.val) = ((p.val * 16 + t.val) * 10 + i.val) * 512 + k.val
  omega

/-- THE BLOCK'S RESULT AT (p, t): `rowOut` of the ten levels of sigmoids of row `p`, tree `t`. -/
theorem blockOut_apply (sg : FVec Ideal S32x16x10x512 .f32) (p : Fin 32) (t : Fin 16) (s : Fin 10 → Fin 512 → EReal)
    (hs : ∀ i k, sg (ix4 p t i k) = s i k) : blockOut sg (ix2 p t) = rowOut s := by
  have e1 : ∀ q, blockMass1 sg (ix3 p t q) = mass1 s q :=
    levelK_row rfl rfl 0 (by omega) _ sg _ _ _ _ _ _ _ _ _ p t (s 0) mass0 (fun k => hs 0 k) (fun _ => rfl)
  have e2 : ∀ q, blockMass2 sg (ix3 p t q) = mass2 s q :=
    levelK_row rfl rfl 1 (by omega) _ sg _ _ _ _ _ _ _ _ _ p t (s 1) (mass1 s) (fun k => hs 1 k) e1
  have e3 : ∀ q, blockMass3 sg (ix3 p t q) = mass3 s q :=
    levelK_row rfl rfl 2 (by omega) _ sg _ _ _ _ _ _ _ _ _ p t (s 2) (mass2 s) (fun k => hs 2 k) e2
  have e4 : ∀ q, blockMass4 sg (ix3 p t q) = mass4 s q :=
    levelK_row rfl rfl 3 (by omega) _ sg _ _ _ _ _ _ _ _ _ p t (s 3) (mass3 s) (fun k => hs 3 k) e3
  have e5 : ∀ q, blockMass5 sg (ix3 p t q) = mass5 s q :=
    levelK_row rfl rfl 4 (by omega) _ sg _ _ _ _ _ _ _ _ _ p t (s 4) (mass4 s) (fun k => hs 4 k) e4
  have e6 : ∀ q, blockMass6 sg (ix3 p t q) = mass6 s q :=
    levelK_row rfl rfl 5 (by omega) _ sg _ _ _ _ _ _ _ _ _ p t (s 5) (mass5 s) (fun k => hs 5 k) e5
  have e7 : ∀ q, blockMass7 sg (ix3 p t q) = mass7 s q :=
    levelK_row rfl rfl 6 (by omega) _ sg _ _ _ _ _ _ _ _ _ p t (s 6) (mass6 s) (fun k => hs 6 k) e6
  have e8 : ∀ q, blockMass8 sg (ix3 p t q) = mass8 s q :=
    levelK_row rfl rfl 7 (by omega) _ sg _ _ _ _ _ _ _ _ _ p t (s 7) (mass7 s) (fun k => hs 7 k) e7
  have e9 : ∀ q, blockMass9 sg (ix3 p t q) = mass9 s q :=
    levelK_row rfl rfl 8 (by omega) _ sg _ _ _ _ _ _ _ _ _ p t (s 8) (mass8 s) (fun k => hs 8 k) e8
  exact outK_row rfl 9 (by omega) _ sg _ _ _ _ _ _ _ _ _ _ _ p t (s 9) (mass9 s) (fun k => hs 9 k) e9

end Cert.KernelIdeal.TreeValue

end
-- ==== Proof.Forest.lean ====
/-
  The whole result as one function of the input array.

  Entry (b, t) of the [1024, 16] result depends only on row `b` of the [1024, 81920] input, and of that row only on the
  5120 entries of tree `t`: level `i`'s 512 logits sit at columns t·5120 + i·512 + k. The entry is `rowOut` of their
  sigmoids.
-/
import proofs.«155742_j82162724372482_1_alg».proof.Proof.TreeSpec

noncomputable section

namespace Cert.Tree

open Idealize.ShloMosaic Idealize.ShloMosaic.ValueIdx

/-- The sigmoid of the input's entry for row `b`, tree `t`, level `i`, position `k`. -/
def sigRow (X : (⟨2, ![1024, 81920]⟩ : Shape).Idx → EReal) (b : Fin 1024) (t : Fin 16) (i : Fin 10) (k : Fin 512) : EReal :=
  Ideal.logistic (X (ix2 b ⟨t.val * 5120 + i.val * 512 + k.val, by omega⟩))

/-- The result array of the input array `X`: entry (b, t) is `rowOut` of row `b`'s sigmoids for tree `t`. -/
def forest (X : (⟨2, ![1024, 81920]⟩ : Shape).Idx → EReal) : (⟨2, ![1024, 16]⟩ : Shape).Idx → EReal :=
  fun j => rowOut (sigRow X (j 0) (j 1))

/-- `forest` at an index given by its coordinates. -/
theorem forest_apply (X : (⟨2, ![1024, 81920]⟩ : Shape).Idx → EReal) (b : Fin 1024) (t : Fin 16) :
    forest X (ix2 b t) = rowOut (sigRow X b t) := rfl

end Cert.Tree

end
-- ==== Proof.Blocks.lean ====
/-
  From the kernel's blocks to its result array.

  Grid point `t` stages rows 32·t … 32·t + 31 of the input and writes back rows 32·t … 32·t + 31 of the result; the 32
  points tile the 1024 rows. What point `t` writes back is `blockOut` of its block's sigmoids, and entry (p, q) of that
  is `rowOut` of row 32·t + p's sigmoids for tree `q`: the block is block `t` of `forest` of the input array. Every row
  lies in the block of the point (its row number) / 32, so after the run the result array is `forest` of the input.
-/
import proofs.«155742_j82162724372482_1_alg».proof.Proof.Gen.KernelIdeal.Value
import proofs.«155742_j82162724372482_1_alg».proof.Proof.KernelValue
import proofs.«155742_j82162724372482_1_alg».proof.Proof.Forest

noncomputable section

namespace Cert.KernelIdeal.TreeValue

open Cert.KernelIdeal Cert.KernelIdeal.Gen Idealize.ShloMosaic Idealize.ShloMosaic.TcCoe Idealize.ShloMosaic.ValueIdx Idealize.SL.Sem Cert.Tree
open Idealize.ShloMosaic.Pipeline (Dat)

/-! ## A block against the whole input, over variables -/

/-- If the block `x0` holds rows 32·blk … of the array `X`, its result at (p, q) is `forest X` at (32·blk + p, q). -/
theorem blockOut_eq_forest (X : (⟨2, ![1024, 81920]⟩ : Shape).Idx → EReal) (x0 : Vec Ideal S32x81920 .f32) (blk : ℕ)
    (hblk : blk < 32)
    (hx : ∀ (p : Fin 32) (col : Fin 81920), x0 (ix2 p col) = X (ix2 ⟨blk * 32 + p.val, by omega⟩ col))
    (p : Fin 32) (q : Fin 16) :
    blockOut (k0_pay2 x0) (ix2 p q) = forest X (ix2 ⟨blk * 32 + p.val, by omega⟩ q) := by
  rw [forest_apply]
  refine blockOut_apply (k0_pay2 x0) p q _ fun i k => ?_
  rw [sigmoid_apply, hx]
  rfl

variable (m : (ℓ : Loc nD τ sig) → Buf (Elt Ideal) ℓ) (ρ : Dev nD → PrngReg)

/-! ## The index maps -/

theorem offsets_zero : (![0, 0] : Fin 2 → Nat) = fun _ => 0 := funext fun a => by fin_cases a <;> rfl

/-- Both windows' blocks at grid point `t` are block row `t`, block column 0 (decided over the 32 points). -/
theorem index_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Grid points are below 32. -/
theorem point_lt (t : Fin cfg0.N) : t.val < 32 := by
  have h : t.val < grid0.N := t.isLt
  rw [N_0] at h
  exact h

/-! ## What a point writes back -/

/-- WHAT POINT `t` WRITES BACK is block `t` of `forest` of the input array as the region finds it. -/
theorem flushed_eq (c : Dev nD) (t : Fin cfg0.N) :
    (dats m 0 c).flushed 1 t = ((cfg0.win 1).blk t).view.read (Elt Ideal) (forest (V m c main_arg0)) := by
  show (cfg0.win 1).cut (grid0.coords t) ((dats m 0 c).after 1 t) = _
  rw [after0_1]
  unfold out0_1
  rw [View.canon_unit_zero offsets_zero]
  simp only [View.ld_unit_zero (S := S32x81920) offsets_zero]
  rw [payload_eq]
  obtain ⟨e0, e1, e2, e3⟩ := index_facts t
  have ht := point_lt t
  funext j
  obtain ⟨p, q, rfl⟩ : ∃ (p : Fin 32) (q : Fin 16), j = ix2 p q := ⟨j 0, j 1, eq_ix2 j⟩
  show blockOut (k0_pay2 (iblk m c 0 t)) (ix2 p q) = forest (V m c main_arg0) (((cfg0.win 1).blk t).view.emb (ix2 p q))
  have hout : ((cfg0.win 1).blk t).view.emb (ix2 p q) = ix2 (⟨t.val * 32 + p.val, by omega⟩ : Fin 1024) q := by
    funext a; apply Fin.ext
    match a with
    | ⟨0, _⟩ => show win0_1.index t (0 : Fin 2) * 32 + 1 * p.val = t.val * 32 + p.val; omega
    | ⟨1, _⟩ => show win0_1.index t (1 : Fin 2) * 16 + 1 * q.val = q.val; omega
  rw [hout]
  refine blockOut_eq_forest (V m c main_arg0) (iblk m c 0 t) t.val ht (fun p' col => ?_) p q
  show V m c main_arg0 (((cfg0.win 0).blk t).view.emb (ix2 p' col)) = V m c main_arg0 (ix2 ⟨t.val * 32 + p'.val, by omega⟩ col)
  refine congrArg (V m c main_arg0) ?_
  funext a; apply Fin.ext
  match a with
  | ⟨0, _⟩ => show win0_0.index t (0 : Fin 2) * 32 + 1 * p'.val = t.val * 32 + p'.val; omega
  | ⟨1, _⟩ => show win0_0.index t (1 : Fin 2) * 81920 + 1 * col.val = col.val; omega

/-! ## The blocks cover the array -/

/-- An index of the result array is in point `t`'s block iff each coordinate is in the block's range on its axis. -/
theorem mem_block (t : Fin cfg0.N) (i : S1024x16.Idx) :
    i ∈ ((cfg0.win 1).blk t).view.set ↔ ∀ a : Fin 2, win0_1.index t a * S32x16.size a ≤ (i a).val
      ∧ (i a).val < win0_1.index t a * S32x16.size a + S32x16.size a := by
  show i ∈ ((View.whole main_v0).slice (win0_1.rect t)).set ↔ _
  rw [View.set_slice_whole, Rect.mem_set_unit]
  exact Iff.rfl

/-- Row `r` of the result lies in the block of point `r / 32`. -/
theorem covered (i : S1024x16.Idx) :
    ∃ t : Fin cfg0.N, (cfg0.win 1).flush t = true ∧ i ∈ ((cfg0.win 1).blk t).view.set := by
  have hi0 : (i 0).val < 1024 := (i 0).isLt
  have hi1 : (i 1).val < 16 := (i 1).isLt
  have hlt : (i 0).val / 32 < cfg0.N := by
    show (i 0).val / 32 < grid0.N
    rw [N_0]; omega
  obtain ⟨-, -, e2, e3⟩ := index_facts ⟨(i 0).val / 32, hlt⟩
  have e2' : win0_1.index ⟨(i 0).val / 32, hlt⟩ (0 : Fin 2) = (i 0).val / 32 := e2
  refine ⟨⟨(i 0).val / 32, hlt⟩, flush0_1 _, ?_⟩
  rw [mem_block]
  intro a
  match a with
  | ⟨0, _⟩ =>
    show win0_1.index ⟨(i 0).val / 32, hlt⟩ (0 : Fin 2) * 32 ≤ (i 0).val
      ∧ (i 0).val < win0_1.index ⟨(i 0).val / 32, hlt⟩ (0 : Fin 2) * 32 + 32
    omega
  | ⟨1, _⟩ =>
    show win0_1.index ⟨(i 0).val / 32, hlt⟩ (1 : Fin 2) * 16 ≤ (i 1).val
      ∧ (i 1).val < win0_1.index ⟨(i 0).val / 32, hlt⟩ (1 : Fin 2) * 16 + 16
    omega

/-! ## The array after the run, and the run -/

/-- THE RESULT ARRAY after the run is `forest` of the input array. -/
theorem final (c : Dev nD) : (dats m 0 c).arrAt 1 cfg0.N = forest (V m c main_arg0) :=
  (dats m 0 c).arrAt_eq_of_cover 1 (forest (V m c main_arg0)) (fun t _ => flushed_eq m c t) covered

/-- The kernel's run: every weakly fair execution terminates with the result array at `forest` of the input array and
    the input unchanged. -/
theorem run : θ_run defs (onTc (τ := τ) (main (F := Ideal))) ⟨m, fun _ => 0, ρ⟩ fun r => ∀ c : Dev nD,
      r.2.mem ((c : Thread nD τ).loc main_v0) = forest (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.TreeValue

end
-- ==== Proof.LevelHost.lean ====
/-
  One level of the tree as the REFERENCE computes it on the host, for any batch extent `B` and any cut of the level's
  512 values into `n` segments of width `w`, read at an index.

  The same mathematics as the kernel's level in the host's operations: the segment sum is the host's reduction from
  the initial value zero, a new unit axis is made by a broadcast along the leading axes instead of a reshape, and the
  constants are rank-0 tensors broadcast to the shape. Read at (b, t, ·) the results are again `segMean`, `branch`
  and `children` of row (b, t)'s values: zero plus a sum is the sum.
-/
import proofs.«155742_j82162724372482_1_alg».proof.Proof.LevelKernel

noncomputable section

open scoped BigOperators

namespace Cert.Tree

open Idealize.ShloMosaic Idealize.ShloMosaic.ValueIdx

variable {B n w n2 : ℕ}

/-! ## The segment means -/

/-- The means of level `i`'s `n` segments of width `w`, as the reference computes them from the sigmoids `sg`. -/
def meanH (i : ℕ) (c : BitVec 32) (sg : FVec Ideal ⟨4, ![B, 16, 10, 512]⟩ .f32)
    (h1 : (⟨4, ![B, 16, 10, 512]⟩ : Shape).Slices ![0, 0, i, 0] ⟨4, ![B, 16, 1, 512]⟩)
    (h2 : (⟨4, ![B, 16, 1, 512]⟩ : Shape).ShapeCasts ⟨3, ![B, 16, 512]⟩)
    (h3 : (⟨3, ![B, 16, 512]⟩ : Shape).ShapeCasts ⟨4, ![B, 16, n, w]⟩)
    (h4 : (⟨4, ![B, 16, n, w]⟩ : Shape).ReducesTo [3] ⟨3, ![B, 16, n]⟩)
    (hS : 0 < (⟨0, ![]⟩ : Shape).numel)
    (hb0 : (⟨0, ![]⟩ : Shape).BroadcastsInDim ⟨3, ![B, 16, n]⟩ (![] : Fin 0 → Fin 3)) : FVec Ideal ⟨3, ![B, 16, n]⟩ .f32 :=
  Host.divf (Host.reduceAdd
      (shapeCast ⟨4, ![B, 16, n, w]⟩ (shapeCast ⟨3, ![B, 16, 512]⟩
        (extractStridedSlice ⟨4, ![B, 16, 1, 512]⟩ ![0, 0, i, 0] sg h1) h2) h3)
      (constant (F := Ideal) ⟨0, ![]⟩ .f32 0x00000000#32) h4 hS)
    (broadcastInDim ⟨3, ![B, 16, n]⟩ ![] hb0 (constant (F := Ideal) ⟨0, ![]⟩ .f32 c))

/-- The reference's mean of segment `p` of level `i`, for row (b, t), is `segMean` of that row's level-`i` sigmoids. -/
theorem meanH_apply (hw : n * w = 512) (i : ℕ) (hi : i < 10) (c : BitVec 32) (sg : FVec Ideal ⟨4, ![B, 16, 10, 512]⟩ .f32)
    (h1 : (⟨4, ![B, 16, 10, 512]⟩ : Shape).Slices ![0, 0, i, 0] ⟨4, ![B, 16, 1, 512]⟩)
    (h2 : (⟨4, ![B, 16, 1, 512]⟩ : Shape).ShapeCasts ⟨3, ![B, 16, 512]⟩)
    (h3 : (⟨3, ![B, 16, 512]⟩ : Shape).ShapeCasts ⟨4, ![B, 16, n, w]⟩)
    (h4 : (⟨4, ![B, 16, n, w]⟩ : Shape).ReducesTo [3] ⟨3, ![B, 16, n]⟩)
    (hS : 0 < (⟨0, ![]⟩ : Shape).numel)
    (hb0 : (⟨0, ![]⟩ : Shape).BroadcastsInDim ⟨3, ![B, 16, n]⟩ (![] : Fin 0 → Fin 3))
    (b : Fin B) (t : Fin 16) (p : Fin n) :
    meanH i c sg h1 h2 h3 h4 hS hb0 (ix3 b t p) = segMean hw c (fun k => sg (ix4 b t ⟨i, hi⟩ k)) p := by
  have hR : (⟨4, ![B, 16, n, w]⟩ : Shape).Reduces [3] ⟨3, ![B, 16, n]⟩ := ⟨h4.1, (show 0 < 3 by omega), h4.2⟩
  unfold meanH segMean
  show Ideal.div (Ideal.hostReduceAdd h4 _ (Ideal.ofBits .f32 0x00000000#32) (ix3 b t p)) (Ideal.ofBits .f32 c) = _
  refine congrArg₂ Ideal.div ?_ rfl
  refine (Ideal.hostReduceAdd_single h4 hR _ _ (ix3 b t p)).trans ?_
  rw [Ideal.ofBits_zero_f32, zero_add]
  show ∑ k : Fin w, _ = ∑ k : Fin w, _
  refine Finset.sum_congr rfl fun k _ => ?_
  have hl : hR.lift (ix3 b t p) k = ix4 b t p k := by
    funext a; refine Fin.ext ?_
    match a with
    | ⟨0, _⟩ => rfl
    | ⟨1, _⟩ => rfl
    | ⟨2, _⟩ => rfl
    | ⟨3, _⟩ => rfl
  rw [hl]
  exact segments_apply hw i hi sg h1 h2 h3 b t p k

/-! ## The branch masses and the next level -/

/-- The branch masses [B, 16, n, 2] from the means `d` and the masses so far `tf`, as the reference computes them. -/
def treesH (d tf : FVec Ideal ⟨3, ![B, 16, n]⟩ .f32)
    (hb0 : (⟨0, ![]⟩ : Shape).BroadcastsInDim ⟨3, ![B, 16, n]⟩ (![] : Fin 0 → Fin 3))
    (hb1 : (⟨3, ![B, 16, n]⟩ : Shape).BroadcastsInDim ⟨4, ![B, 16, n, 1]⟩ (![0, 1, 2] : Fin 3 → Fin 4))
    (hb2 : (⟨4, ![B, 16, n, 1]⟩ : Shape).BroadcastsInDim ⟨4, ![B, 16, n, 2]⟩ (![0, 1, 2, 3] : Fin 4 → Fin 4))
    (h6 : Shape.Concatenates [⟨4, ![B, 16, n, 1]⟩, ⟨4, ![B, 16, n, 1]⟩] ⟨4, ![B, 16, n, 2]⟩ 3) :
    FVec Ideal ⟨4, ![B, 16, n, 2]⟩ .f32 :=
  mulf (broadcastInDim ⟨4, ![B, 16, n, 2]⟩ ![0, 1, 2, 3] hb2 (broadcastInDim ⟨4, ![B, 16, n, 1]⟩ ![0, 1, 2] hb1 tf))
    (concatenate ⟨4, ![B, 16, n, 2]⟩ 3
      [⟨⟨4, ![B, 16, n, 1]⟩, broadcastInDim ⟨4, ![B, 16, n, 1]⟩ ![0, 1, 2] hb1
          (subf (broadcastInDim ⟨3, ![B, 16, n]⟩ ![] hb0 (constant (F := Ideal) ⟨0, ![]⟩ .f32 0x3F800000#32)) d)⟩,
       ⟨⟨4, ![B, 16, n, 1]⟩, broadcastInDim ⟨4, ![B, 16, n, 1]⟩ ![0, 1, 2] hb1 d⟩] h6)

/-- A [B, 16, n] tensor broadcast to a trailing unit axis reads the same entry. -/
theorem columnH_apply {α : Type} (v : (⟨3, ![B, 16, n]⟩ : Shape).Idx → α)
    (hb1 : (⟨3, ![B, 16, n]⟩ : Shape).BroadcastsInDim ⟨4, ![B, 16, n, 1]⟩ (![0, 1, 2] : Fin 3 → Fin 4))
    (b : Fin B) (t : Fin 16) (p : Fin n) :
    broadcastInDim ⟨4, ![B, 16, n, 1]⟩ ![0, 1, 2] hb1 v (ix4 b t p (0 : Fin 1)) = v (ix3 b t p) := by
  refine broadcastInDim_apply _ hb1 v _ (ix3 b t p) fun a => ?_
  match a with
  | ⟨0, _⟩ => show b.val = if B = 1 then 0 else b.val; split <;> omega
  | ⟨1, _⟩ => rfl
  | ⟨2, _⟩ => show p.val = if n = 1 then 0 else p.val; split <;> omega

/-- The reference's branch mass at (b, t, p, e): the mass at node `p` times `1 - mean` (e = 0) or `mean` (e = 1). -/
theorem treesH_apply (d tf : FVec Ideal ⟨3, ![B, 16, n]⟩ .f32)
    (hb0 : (⟨0, ![]⟩ : Shape).BroadcastsInDim ⟨3, ![B, 16, n]⟩ (![] : Fin 0 → Fin 3))
    (hb1 : (⟨3, ![B, 16, n]⟩ : Shape).BroadcastsInDim ⟨4, ![B, 16, n, 1]⟩ (![0, 1, 2] : Fin 3 → Fin 4))
    (hb2 : (⟨4, ![B, 16, n, 1]⟩ : Shape).BroadcastsInDim ⟨4, ![B, 16, n, 2]⟩ (![0, 1, 2, 3] : Fin 4 → Fin 4))
    (h6 : Shape.Concatenates [⟨4, ![B, 16, n, 1]⟩, ⟨4, ![B, 16, n, 1]⟩] ⟨4, ![B, 16, n, 2]⟩ 3)
    (b : Fin B) (t : Fin 16) (p : Fin n) (e : Fin 2) :
    treesH d tf hb0 hb1 hb2 h6 (ix4 b t p e)
      = tf (ix3 b t p) * (if e.val = 0 then Ideal.ofBits .f32 0x3F800000#32 - d (ix3 b t p) else d (ix3 b t p)) := by
  unfold treesH
  rw [mulf_apply]
  refine congrArg₂ (· * ·) ?_ ?_
  · refine (broadcastInDim_apply _ hb2 _ (ix4 b t p e) (ix4 b t p (0 : Fin 1)) fun a => ?_).trans (columnH_apply tf hb1 b t p)
    match a with
    | ⟨0, _⟩ => show b.val = if B = 1 then 0 else b.val; split <;> omega
    | ⟨1, _⟩ => rfl
    | ⟨2, _⟩ => show p.val = if n = 1 then 0 else p.val; split <;> omega
    | ⟨3, _⟩ => rfl
  · match e with
    | ⟨0, _⟩ =>
      refine (concatenate_pair_apply_left (t := ⟨4, ![B, 16, n, 2]⟩) (s₁ := ⟨4, ![B, 16, n, 1]⟩) (s₂ := ⟨4, ![B, 16, n, 1]⟩)
        (3 : Fin 4) _ _ h6 (ix4 b t p (0 : Fin 2)) (rfl : (4 : ℕ) = 4) (ix4 b t p (0 : Fin 1)) fun a => ?_).trans ?_
      · match a with
        | ⟨0, _⟩ => rfl
        | ⟨1, _⟩ => rfl
        | ⟨2, _⟩ => rfl
        | ⟨3, _⟩ => rfl
      · rw [columnH_apply _ hb1 b t p]; rfl
    | ⟨1, _⟩ =>
      refine (concatenate_pair_apply_right (t := ⟨4, ![B, 16, n, 2]⟩) (s₁ := ⟨4, ![B, 16, n, 1]⟩) (s₂ := ⟨4, ![B, 16, n, 1]⟩)
        (3 : Fin 4) _ _ h6 (ix4 b t p (1 : Fin 2)) (rfl : (4 : ℕ) = 4) (rfl : (4 : ℕ) = 4) (ix4 b t p (0 : Fin 1)) (fun a ha => ?_) rfl).trans ?_
      · match a with
        | ⟨0, _⟩ => rfl
        | ⟨1, _⟩ => rfl
        | ⟨2, _⟩ => rfl
        | ⟨3, _⟩ => exact absurd rfl ha
      · rw [columnH_apply d hb1 b t p]; rfl

/-- The next level's masses [B, 16, 2n]: the branch masses flattened. -/
def levelH (d tf : FVec Ideal ⟨3, ![B, 16, n]⟩ .f32)
    (hb0 : (⟨0, ![]⟩ : Shape).BroadcastsInDim ⟨3, ![B, 16, n]⟩ (![] : Fin 0 → Fin 3))
    (hb1 : (⟨3, ![B, 16, n]⟩ : Shape).BroadcastsInDim ⟨4, ![B, 16, n, 1]⟩ (![0, 1, 2] : Fin 3 → Fin 4))
    (hb2 : (⟨4, ![B, 16, n, 1]⟩ : Shape).BroadcastsInDim ⟨4, ![B, 16, n, 2]⟩ (![0, 1, 2, 3] : Fin 4 → Fin 4))
    (h6 : Shape.Concatenates [⟨4, ![B, 16, n, 1]⟩, ⟨4, ![B, 16, n, 1]⟩] ⟨4, ![B, 16, n, 2]⟩ 3)
    (h8 : (⟨4, ![B, 16, n, 2]⟩ : Shape).ShapeCasts ⟨3, ![B, 16, n2]⟩) : FVec Ideal ⟨3, ![B, 16, n2]⟩ .f32 :=
  shapeCast ⟨3, ![B, 16, n2]⟩ (treesH d tf hb0 hb1 hb2 h6) h8

/-- The reference's next-level masses for row (b, t) are the `children` of the row's `branch` masses. -/
theorem levelH_apply (hw : n * w = 512) (hn2 : n2 = 2 * n) (i : ℕ) (hi : i < 10) (c : BitVec 32)
    (sg : FVec Ideal ⟨4, ![B, 16, 10, 512]⟩ .f32) (tf : FVec Ideal ⟨3, ![B, 16, n]⟩ .f32)
    (h1 : (⟨4, ![B, 16, 10, 512]⟩ : Shape).Slices ![0, 0, i, 0] ⟨4, ![B, 16, 1, 512]⟩)
    (h2 : (⟨4, ![B, 16, 1, 512]⟩ : Shape).ShapeCasts ⟨3, ![B, 16, 512]⟩)
    (h3 : (⟨3, ![B, 16, 512]⟩ : Shape).ShapeCasts ⟨4, ![B, 16, n, w]⟩)
    (h4 : (⟨4, ![B, 16, n, w]⟩ : Shape).ReducesTo [3] ⟨3, ![B, 16, n]⟩)
    (hS : 0 < (⟨0, ![]⟩ : Shape).numel)
    (hb0 : (⟨0, ![]⟩ : Shape).BroadcastsInDim ⟨3, ![B, 16, n]⟩ (![] : Fin 0 → Fin 3))
    (hb1 : (⟨3, ![B, 16, n]⟩ : Shape).BroadcastsInDim ⟨4, ![B, 16, n, 1]⟩ (![0, 1, 2] : Fin 3 → Fin 4))
    (hb2 : (⟨4, ![B, 16, n, 1]⟩ : Shape).BroadcastsInDim ⟨4, ![B, 16, n, 2]⟩ (![0, 1, 2, 3] : Fin 4 → Fin 4))
    (h6 : Shape.Concatenates [⟨4, ![B, 16, n, 1]⟩, ⟨4, ![B, 16, n, 1]⟩] ⟨4, ![B, 16, n, 2]⟩ 3)
    (h8 : (⟨4, ![B, 16, n, 2]⟩ : Shape).ShapeCasts ⟨3, ![B, 16, n2]⟩)
    (b : Fin B) (t : Fin 16) (q : Fin n2) :
    levelH (meanH i c sg h1 h2 h3 h4 hS hb0) tf hb0 hb1 hb2 h6 h8 (ix3 b t q)
      = children hn2 (branch hw c (fun k => sg (ix4 b t ⟨i, hi⟩ k)) (fun p => tf (ix3 b t p))) q := by
  unfold levelH children branch
  rw [flatten_apply hn2, treesH_apply, meanH_apply hw i hi]

/-- The reference's branch masses of the last level for row (b, t) are the row's `branch` masses. -/
theorem treesH_mean_apply (hw : n * w = 512) (i : ℕ) (hi : i < 10) (c : BitVec 32)
    (sg : FVec Ideal ⟨4, ![B, 16, 10, 512]⟩ .f32) (tf : FVec Ideal ⟨3, ![B, 16, n]⟩ .f32)
    (h1 : (⟨4, ![B, 16, 10, 512]⟩ : Shape).Slices ![0, 0, i, 0] ⟨4, ![B, 16, 1, 512]⟩)
    (h2 : (⟨4, ![B, 16, 1, 512]⟩ : Shape).ShapeCasts ⟨3, ![B, 16, 512]⟩)
    (h3 : (⟨3, ![B, 16, 512]⟩ : Shape).ShapeCasts ⟨4, ![B, 16, n, w]⟩)
    (h4 : (⟨4, ![B, 16, n, w]⟩ : Shape).ReducesTo [3] ⟨3, ![B, 16, n]⟩)
    (hS : 0 < (⟨0, ![]⟩ : Shape).numel)
    (hb0 : (⟨0, ![]⟩ : Shape).BroadcastsInDim ⟨3, ![B, 16, n]⟩ (![] : Fin 0 → Fin 3))
    (hb1 : (⟨3, ![B, 16, n]⟩ : Shape).BroadcastsInDim ⟨4, ![B, 16, n, 1]⟩ (![0, 1, 2] : Fin 3 → Fin 4))
    (hb2 : (⟨4, ![B, 16, n, 1]⟩ : Shape).BroadcastsInDim ⟨4, ![B, 16, n, 2]⟩ (![0, 1, 2, 3] : Fin 4 → Fin 4))
    (h6 : Shape.Concatenates [⟨4, ![B, 16, n, 1]⟩, ⟨4, ![B, 16, n, 1]⟩] ⟨4, ![B, 16, n, 2]⟩ 3)
    (b : Fin B) (t : Fin 16) (p : Fin n) (e : Fin 2) :
    treesH (meanH i c sg h1 h2 h3 h4 hS hb0) tf hb0 hb1 hb2 h6 (ix4 b t p e)
      = branch hw c (fun k => sg (ix4 b t ⟨i, hi⟩ k)) (fun p => tf (ix3 b t p)) p e := by
  unfold branch
  rw [treesH_apply, meanH_apply hw i hi]

/-- `levelH_apply` with the row's values named: if row (b, t)'s level-`i` sigmoids are `s` and its masses so far `tfr`,
    the reference's next-level masses of that row are `children (branch s tfr)`. -/
theorem levelH_row (hw : n * w = 512) (hn2 : n2 = 2 * n) (i : ℕ) (hi : i < 10) (c : BitVec 32)
    (sg : FVec Ideal ⟨4, ![B, 16, 10, 512]⟩ .f32) (tf : FVec Ideal ⟨3, ![B, 16, n]⟩ .f32)
    (h1 : (⟨4, ![B, 16, 10, 512]⟩ : Shape).Slices ![0, 0, i, 0] ⟨4, ![B, 16, 1, 512]⟩)
    (h2 : (⟨4, ![B, 16, 1, 512]⟩ : Shape).ShapeCasts ⟨3, ![B, 16, 512]⟩)
    (h3 : (⟨3, ![B, 16, 512]⟩ : Shape).ShapeCasts ⟨4, ![B, 16, n, w]⟩)
    (h4 : (⟨4, ![B, 16, n, w]⟩ : Shape).ReducesTo [3] ⟨3, ![B, 16, n]⟩)
    (hS : 0 < (⟨0, ![]⟩ : Shape).numel)
    (hb0 : (⟨0, ![]⟩ : Shape).BroadcastsInDim ⟨3, ![B, 16, n]⟩ (![] : Fin 0 → Fin 3))
    (hb1 : (⟨3, ![B, 16, n]⟩ : Shape).BroadcastsInDim ⟨4, ![B, 16, n, 1]⟩ (![0, 1, 2] : Fin 3 → Fin 4))
    (hb2 : (⟨4, ![B, 16, n, 1]⟩ : Shape).BroadcastsInDim ⟨4, ![B, 16, n, 2]⟩ (![0, 1, 2, 3] : Fin 4 → Fin 4))
    (h6 : Shape.Concatenates [⟨4, ![B, 16, n, 1]⟩, ⟨4, ![B, 16, n, 1]⟩] ⟨4, ![B, 16, n, 2]⟩ 3)
    (h8 : (⟨4, ![B, 16, n, 2]⟩ : Shape).ShapeCasts ⟨3, ![B, 16, n2]⟩)
    (b : Fin B) (t : Fin 16) (s : Fin 512 → EReal) (tfr : Fin n → EReal)
    (hs : ∀ k, sg (ix4 b t ⟨i, hi⟩ k) = s k) (htf : ∀ p, tf (ix3 b t p) = tfr p) (q : Fin n2) :
    levelH (meanH i c sg h1 h2 h3 h4 hS hb0) tf hb0 hb1 hb2 h6 h8 (ix3 b t q) = children hn2 (branch hw c s tfr) q := by
  rw [levelH_apply hw hn2 i hi, show (fun k => sg (ix4 b t ⟨i, hi⟩ k)) = s from funext hs,
    show (fun p => tf (ix3 b t p)) = tfr from funext htf]

/-! ## The result: the right children below the last level, summed -/

/-- The total of the last level's branch masses over the nodes, from zero, of which the right children's column is
    kept: the reference's last three operations. -/
def outH (tr : FVec Ideal ⟨4, ![B, 16, n, 2]⟩ .f32)
    (hR : (⟨4, ![B, 16, n, 2]⟩ : Shape).ReducesTo [2] ⟨3, ![B, 16, 2]⟩)
    (hS : 0 < (⟨0, ![]⟩ : Shape).numel)
    (hs : (⟨3, ![B, 16, 2]⟩ : Shape).Slices ![0, 0, 1] ⟨3, ![B, 16, 1]⟩)
    (hc : (⟨3, ![B, 16, 1]⟩ : Shape).ShapeCasts ⟨2, ![B, 16]⟩) : FVec Ideal ⟨2, ![B, 16]⟩ .f32 :=
  shapeCast ⟨2, ![B, 16]⟩ (extractStridedSlice ⟨3, ![B, 16, 1]⟩ ![0, 0, 1]
    (Host.reduceAdd tr (constant (F := Ideal) ⟨0, ![]⟩ .f32 0x00000000#32) hR hS) hs) hc

/-- The reference's result at (b, t): the sum over the nodes of the right-child branch masses. -/
theorem outH_apply (tr : FVec Ideal ⟨4, ![B, 16, n, 2]⟩ .f32)
    (hR : (⟨4, ![B, 16, n, 2]⟩ : Shape).ReducesTo [2] ⟨3, ![B, 16, 2]⟩)
    (hS : 0 < (⟨0, ![]⟩ : Shape).numel)
    (hs : (⟨3, ![B, 16, 2]⟩ : Shape).Slices ![0, 0, 1] ⟨3, ![B, 16, 1]⟩)
    (hc : (⟨3, ![B, 16, 1]⟩ : Shape).ShapeCasts ⟨2, ![B, 16]⟩) (b : Fin B) (t : Fin 16) :
    outH tr hR hS hs hc (ix2 b t) = ∑ p : Fin n, tr (ix4 b t p (1 : Fin 2)) := by
  have hR' : (⟨4, ![B, 16, n, 2]⟩ : Shape).Reduces [2] ⟨3, ![B, 16, 2]⟩ := ⟨hR.1, (show 0 < 3 by omega), hR.2⟩
  unfold outH
  rw [rightColumn_apply]
  show Ideal.hostReduceAdd hR tr (Ideal.ofBits .f32 0x00000000#32) (ix3 b t (1 : Fin 2)) = _
  refine (Ideal.hostReduceAdd_single hR hR' _ _ (ix3 b t (1 : Fin 2))).trans ?_
  rw [Ideal.ofBits_zero_f32, zero_add]
  show ∑ p : Fin n, _ = ∑ p : Fin n, _
  refine Finset.sum_congr rfl fun p _ => congrArg tr ?_
  funext a; refine Fin.ext ?_
  match a with
  | ⟨0, _⟩ => rfl
  | ⟨1, _⟩ => rfl
  | ⟨2, _⟩ => rfl
  | ⟨3, _⟩ => rfl

/-- The reference's result for row (b, t) from the row's values: the right-child `branch` masses of the last level,
    summed. -/
theorem outH_row (hw : n * w = 512) (i : ℕ) (hi : i < 10) (c : BitVec 32)
    (sg : FVec Ideal ⟨4, ![B, 16, 10, 512]⟩ .f32) (tf : FVec Ideal ⟨3, ![B, 16, n]⟩ .f32)
    (h1 : (⟨4, ![B, 16, 10, 512]⟩ : Shape).Slices ![0, 0, i, 0] ⟨4, ![B, 16, 1, 512]⟩)
    (h2 : (⟨4, ![B, 16, 1, 512]⟩ : Shape).ShapeCasts ⟨3, ![B, 16, 512]⟩)
    (h3 : (⟨3, ![B, 16, 512]⟩ : Shape).ShapeCasts ⟨4, ![B, 16, n, w]⟩)
    (h4 : (⟨4, ![B, 16, n, w]⟩ : Shape).ReducesTo [3] ⟨3, ![B, 16, n]⟩)
    (hS : 0 < (⟨0, ![]⟩ : Shape).numel)
    (hb0 : (⟨0, ![]⟩ : Shape).BroadcastsInDim ⟨3, ![B, 16, n]⟩ (![] : Fin 0 → Fin 3))
    (hb1 : (⟨3, ![B, 16, n]⟩ : Shape).BroadcastsInDim ⟨4, ![B, 16, n, 1]⟩ (![0, 1, 2] : Fin 3 → Fin 4))
    (hb2 : (⟨4, ![B, 16, n, 1]⟩ : Shape).BroadcastsInDim ⟨4, ![B, 16, n, 2]⟩ (![0, 1, 2, 3] : Fin 4 → Fin 4))
    (h6 : Shape.Concatenates [⟨4, ![B, 16, n, 1]⟩, ⟨4, ![B, 16, n, 1]⟩] ⟨4, ![B, 16, n, 2]⟩ 3)
    (hR : (⟨4, ![B, 16, n, 2]⟩ : Shape).ReducesTo [2] ⟨3, ![B, 16, 2]⟩)
    (hsl : (⟨3, ![B, 16, 2]⟩ : Shape).Slices ![0, 0, 1] ⟨3, ![B, 16, 1]⟩)
    (hc : (⟨3, ![B, 16, 1]⟩ : Shape).ShapeCasts ⟨2, ![B, 16]⟩)
    (b : Fin B) (t : Fin 16) (s : Fin 512 → EReal) (tfr : Fin n → EReal)
    (hs : ∀ k, sg (ix4 b t ⟨i, hi⟩ k) = s k) (htf : ∀ p, tf (ix3 b t p) = tfr p) :
    outH (treesH (meanH i c sg h1 h2 h3 h4 hS hb0) tf hb0 hb1 hb2 h6) hR hS hsl hc (ix2 b t)
      = ∑ p : Fin n, branch hw c s tfr p 1 := by
  rw [outH_apply]
  refine Finset.sum_congr rfl fun p _ => ?_
  rw [treesH_mean_apply hw i hi, show (fun k => sg (ix4 b t ⟨i, hi⟩ k)) = s from funext hs,
    show (fun p => tf (ix3 b t p)) = tfr from funext htf]

end Cert.Tree

end
-- ==== Proof.RefValue.lean ====
/-
  What the reference computes, entry by entry.

  The reference reshapes the whole [1024, 81920] input to [1024, 16, 10, 512], takes the sigmoid as 1 / (1 + exp (-x)),
  runs the ten levels of the tree and returns the [1024, 16] result. The ten levels are named one by one
  (`hostMass1` … `hostMass9`, each the generic level of LevelHost.lean at its own cut of 512), the run's result term is
  shown to be their composition, and read at (b, t) it is `rowOut` of the sigmoids of row `b`'s slice for tree `t`.
  The quotient 1 / (1 + exp (-x)) IS the sigmoid of the extended reals: the float word of 1.0 reads the number one.
-/
import proofs.«155742_j82162724372482_1_alg».proof.Proof.Gen.ReferenceIdeal.Run
import proofs.«155742_j82162724372482_1_alg».proof.Proof.LevelHost

noncomputable section

open scoped BigOperators

namespace Cert.ReferenceIdeal.TreeValue

open Idealize.ShloMosaic Idealize.ShloMosaic.ValueIdx Cert.ReferenceIdeal Cert.ReferenceIdeal.Gen Cert.ReferenceIdeal.Value Cert.Tree

/-! ## The sigmoid -/

/-- The float word of 1.0 reads the extended real one. -/
theorem ofBits_one : Ideal.ofBits .f32 0x3F800000#32 = 1 := by
  simp [Ideal.ofBits, Ideal.ieee, -EReal.coe_mul]; norm_num

/-- The reference's sigmoids of the whole input `X`, as a [1024, 16, 10, 512] tensor. -/
def hostSigmoid (X : FVec Ideal S1024x81920 .f32) : FVec Ideal S1024x16x10x512 .f32 :=
  Host.divf (broadcastInDim S1024x16x10x512 ![] bcast_S_S1024x16x10x512 (constant (F := Ideal) S_ .f32 0x3F800000#32))
    (addf (broadcastInDim S1024x16x10x512 ![] bcast_S_S1024x16x10x512 (constant (F := Ideal) S_ .f32 0x3F800000#32))
      (Host.exp (Host.negf (shapeCast S1024x16x10x512 X shapeCasts_S1024x81920_S1024x16x10x512))))

/-- At (b, t, i, k) it is the sigmoid of the input's entry (b, t·5120 + i·512 + k). -/
theorem hostSigmoid_apply (X : FVec Ideal S1024x81920 .f32) (b : Fin 1024) (t : Fin 16) (i : Fin 10) (k : Fin 512) :
    hostSigmoid X (ix4 b t i k)
      = Ideal.logistic (X (ix2 b ⟨t.val * 5120 + i.val * 512 + k.val, by omega⟩)) := by
  unfold hostSigmoid
  show Ideal.div (Ideal.ofBits .f32 0x3F800000#32) (Ideal.ofBits .f32 0x3F800000#32
    + Ideal.exp (-(shapeCast S1024x16x10x512 X shapeCasts_S1024x81920_S1024x16x10x512 (ix4 b t i k)))) = _
  rw [ofBits_one]
  refine congrArg (fun v => Ideal.div 1 (1 + Ideal.exp (-v))) ?_
  refine shapeCast_apply X _ _ _ ?_
  rw [Shape.rowMajor_val_two, Shape.rowMajor_val_four]
  show b.val * 81920 + (t.val * 5120 + i.val * 512 + k.val) = ((b.val * 16 + t.val) * 10 + i.val) * 512 + k.val
  omega

/-! ## The ten levels on the whole input -/

/-- The root's mass: one everywhere. -/
def hostMass0 : FVec Ideal S1024x16x1 .f32 :=
  broadcastInDim S1024x16x1 ![] bcast_S_S1024x16x1 (constant (F := Ideal) S_ .f32 0x3F800000#32)

/-- The masses below level 0, from the sigmoids `sg`. -/
def hostMass1 (sg : FVec Ideal S1024x16x10x512 .f32) : FVec Ideal S1024x16x2 .f32 :=
  levelH (meanH 0 0x44000000#32 sg slices_S1024x16x10x512_S1024x16x1x512_0_0_0_0 shapeCasts_S1024x16x1x512_S1024x16x512
      shapeCasts_S1024x16x512_S1024x16x1x512 reducesTo_S1024x16x1x512_S1024x16x1_d3 h_S_ bcast_S_S1024x16x1)
    hostMass0 bcast_S_S1024x16x1 bcast_S1024x16x1_S1024x16x1x1_0_1_2 bcast_S1024x16x1x1_S1024x16x1x2_0_1_2_3
    concatenates_S1024x16x1x1_S1024x16x1x1_S1024x16x1x2_d3 shapeCasts_S1024x16x1x2_S1024x16x2
/-- The masses below level 1. -/
def hostMass2 (sg : FVec Ideal S1024x16x10x512 .f32) : FVec Ideal S1024x16x4 .f32 :=
  levelH (meanH 1 0x43800000#32 sg slices_S1024x16x10x512_S1024x16x1x512_0_0_1_0 shapeCasts_S1024x16x1x512_S1024x16x512
      shapeCasts_S1024x16x512_S1024x16x2x256 reducesTo_S1024x16x2x256_S1024x16x2_d3 h_S_ bcast_S_S1024x16x2)
    (hostMass1 sg) bcast_S_S1024x16x2 bcast_S1024x16x2_S1024x16x2x1_0_1_2 bcast_S1024x16x2x1_S1024x16x2x2_0_1_2_3
    concatenates_S1024x16x2x1_S1024x16x2x1_S1024x16x2x2_d3 shapeCasts_S1024x16x2x2_S1024x16x4
/-- The masses below level 2. -/
def hostMass3 (sg : FVec Ideal S1024x16x10x512 .f32) : FVec Ideal S1024x16x8 .f32 :=
  levelH (meanH 2 0x43000000#32 sg slices_S1024x16x10x512_S1024x16x1x512_0_0_2_0 shapeCasts_S1024x16x1x512_S1024x16x512
      shapeCasts_S1024x16x512_S1024x16x4x128 reducesTo_S1024x16x4x128_S1024x16x4_d3 h_S_ bcast_S_S1024x16x4)
    (hostMass2 sg) bcast_S_S1024x16x4 bcast_S1024x16x4_S1024x16x4x1_0_1_2 bcast_S1024x16x4x1_S1024x16x4x2_0_1_2_3
    concatenates_S1024x16x4x1_S1024x16x4x1_S1024x16x4x2_d3 shapeCasts_S1024x16x4x2_S1024x16x8
/-- The masses below level 3. -/
def hostMass4 (sg : FVec Ideal S1024x16x10x512 .f32) : FVec Ideal S1024x16x16 .f32 :=
  levelH (meanH 3 0x42800000#32 sg slices_S1024x16x10x512_S1024x16x1x512_0_0_3_0 shapeCasts_S1024x16x1x512_S1024x16x512
      shapeCasts_S1024x16x512_S1024x16x8x64 reducesTo_S1024x16x8x64_S1024x16x8_d3 h_S_ bcast_S_S1024x16x8)
    (hostMass3 sg) bcast_S_S1024x16x8 bcast_S1024x16x8_S1024x16x8x1_0_1_2 bcast_S1024x16x8x1_S1024x16x8x2_0_1_2_3
    concatenates_S1024x16x8x1_S1024x16x8x1_S1024x16x8x2_d3 shapeCasts_S1024x16x8x2_S1024x16x16
/-- The masses below level 4. -/
def hostMass5 (sg : FVec Ideal S1024x16x10x512 .f32) : FVec Ideal S1024x16x32 .f32 :=
  levelH (meanH 4 0x42000000#32 sg slices_S1024x16x10x512_S1024x16x1x512_0_0_4_0 shapeCasts_S1024x16x1x512_S1024x16x512
      shapeCasts_S1024x16x512_S1024x16x16x32 reducesTo_S1024x16x16x32_S1024x16x16_d3 h_S_ bcast_S_S1024x16x16)
    (hostMass4 sg) bcast_S_S1024x16x16 bcast_S1024x16x16_S1024x16x16x1_0_1_2 bcast_S1024x16x16x1_S1024x16x16x2_0_1_2_3
    concatenates_S1024x16x16x1_S1024x16x16x1_S1024x16x16x2_d3 shapeCasts_S1024x16x16x2_S1024x16x32
/-- The masses below level 5. -/
def hostMass6 (sg : FVec Ideal S1024x16x10x512 .f32) : FVec Ideal S1024x16x64 .f32 :=
  levelH (meanH 5 0x41800000#32 sg slices_S1024x16x10x512_S1024x16x1x512_0_0_5_0 shapeCasts_S1024x16x1x512_S1024x16x512
      shapeCasts_S1024x16x512_S1024x16x32x16 reducesTo_S1024x16x32x16_S1024x16x32_d3 h_S_ bcast_S_S1024x16x32)
    (hostMass5 sg) bcast_S_S1024x16x32 bcast_S1024x16x32_S1024x16x32x1_0_1_2 bcast_S1024x16x32x1_S1024x16x32x2_0_1_2_3
    concatenates_S1024x16x32x1_S1024x16x32x1_S1024x16x32x2_d3 shapeCasts_S1024x16x32x2_S1024x16x64
/-- The masses below level 6. -/
def hostMass7 (sg : FVec Ideal S1024x16x10x512 .f32) : FVec Ideal S1024x16x128 .f32 :=
  levelH (meanH 6 0x41000000#32 sg slices_S1024x16x10x512_S1024x16x1x512_0_0_6_0 shapeCasts_S1024x16x1x512_S1024x16x512
      shapeCasts_S1024x16x512_S1024x16x64x8 reducesTo_S1024x16x64x8_S1024x16x64_d3 h_S_ bcast_S_S1024x16x64)
    (hostMass6 sg) bcast_S_S1024x16x64 bcast_S1024x16x64_S1024x16x64x1_0_1_2 bcast_S1024x16x64x1_S1024x16x64x2_0_1_2_3
    concatenates_S1024x16x64x1_S1024x16x64x1_S1024x16x64x2_d3 shapeCasts_S1024x16x64x2_S1024x16x128
/-- The masses below level 7. -/
def hostMass8 (sg : FVec Ideal S1024x16x10x512 .f32) : FVec Ideal S1024x16x256 .f32 :=
  levelH (meanH 7 0x40800000#32 sg slices_S1024x16x10x512_S1024x16x1x512_0_0_7_0 shapeCasts_S1024x16x1x512_S1024x16x512
      shapeCasts_S1024x16x512_S1024x16x128x4 reducesTo_S1024x16x128x4_S1024x16x128_d3 h_S_ bcast_S_S1024x16x128)
    (hostMass7 sg) bcast_S_S1024x16x128 bcast_S1024x16x128_S1024x16x128x1_0_1_2 bcast_S1024x16x128x1_S1024x16x128x2_0_1_2_3
    concatenates_S1024x16x128x1_S1024x16x128x1_S1024x16x128x2_d3 shapeCasts_S1024x16x128x2_S1024x16x256
/-- The masses below level 8. -/
def hostMass9 (sg : FVec Ideal S1024x16x10x512 .f32) : FVec Ideal S1024x16x512 .f32 :=
  levelH (meanH 8 0x40000000#32 sg slices_S1024x16x10x512_S1024x16x1x512_0_0_8_0 shapeCasts_S1024x16x1x512_S1024x16x512
      shapeCasts_S1024x16x512_S1024x16x256x2 reducesTo_S1024x16x256x2_S1024x16x256_d3 h_S_ bcast_S_S1024x16x256)
    (hostMass8 sg) bcast_S_S1024x16x256 bcast_S1024x16x256_S1024x16x256x1_0_1_2 bcast_S1024x16x256x1_S1024x16x256x2_0_1_2_3
    concatenates_S1024x16x256x1_S1024x16x256x1_S1024x16x256x2_d3 shapeCasts_S1024x16x256x2_S1024x16x512

/-- The reference's result: the last level's branch masses, right children summed. -/
def hostOut (sg : FVec Ideal S1024x16x10x512 .f32) : FVec Ideal S1024x16 .f32 :=
  outH (treesH (meanH 9 0x3F800000#32 sg slices_S1024x16x10x512_S1024x16x1x512_0_0_9_0 shapeCasts_S1024x16x1x512_S1024x16x512
        shapeCasts_S1024x16x512_S1024x16x512x1 reducesTo_S1024x16x512x1_S1024x16x512_d3 h_S_ bcast_S_S1024x16x512)
      (hostMass9 sg) bcast_S_S1024x16x512 bcast_S1024x16x512_S1024x16x512x1_0_1_2 bcast_S1024x16x512x1_S1024x16x512x2_0_1_2_3
      concatenates_S1024x16x512x1_S1024x16x512x1_S1024x16x512x2_d3)
    reducesTo_S1024x16x512x2_S1024x16x2_d2 h_S_ slices_S1024x16x2_S1024x16x1_0_0_1 shapeCasts_S1024x16x1_S1024x16

/-! ## The run's result term is that composition -/

/-- The reference run's result, as a function of the launch contents `V0`: `hostOut` of the sigmoids of the input. The
    run's named intermediate terms, level by level, are the generic level's. -/
theorem result_eq (V0 : Valuation τ sig (Elt Ideal)) :
    shapeCast S1024x16 (extractStridedSlice S1024x16x1 ![0, 0, 1]
        (Host.reduceAdd (res_main_v158 V0) (constant (F := Ideal) S_ .f32 0x00000000#32) reducesTo_S1024x16x512x2_S1024x16x2_d2 h_S_)
        slices_S1024x16x2_S1024x16x1_0_0_1) shapeCasts_S1024x16x1_S1024x16
      = hostOut (hostSigmoid (V0 (Proc.devRef .tc main_arg0))) := rfl

/-! ## The result at an entry -/

/-- THE REFERENCE'S RESULT AT (b, t): `rowOut` of the ten levels of sigmoids of row `b`, tree `t`. -/
theorem hostOut_apply (sg : FVec Ideal S1024x16x10x512 .f32) (b : Fin 1024) (t : Fin 16) (s : Fin 10 → Fin 512 → EReal)
    (hs : ∀ i k, sg (ix4 b t i k) = s i k) : hostOut sg (ix2 b t) = rowOut s := by
  have e1 : ∀ q, hostMass1 sg (ix3 b t q) = mass1 s q :=
    levelH_row rfl rfl 0 (by omega) _ sg _ _ _ _ _ _ _ _ _ _ _ b t (s 0) mass0 (fun k => hs 0 k) (fun _ => rfl)
  have e2 : ∀ q, hostMass2 sg (ix3 b t q) = mass2 s q :=
    levelH_row rfl rfl 1 (by omega) _ sg _ _ _ _ _ _ _ _ _ _ _ b t (s 1) (mass1 s) (fun k => hs 1 k) e1
  have e3 : ∀ q, hostMass3 sg (ix3 b t q) = mass3 s q :=
    levelH_row rfl rfl 2 (by omega) _ sg _ _ _ _ _ _ _ _ _ _ _ b t (s 2) (mass2 s) (fun k => hs 2 k) e2
  have e4 : ∀ q, hostMass4 sg (ix3 b t q) = mass4 s q :=
    levelH_row rfl rfl 3 (by omega) _ sg _ _ _ _ _ _ _ _ _ _ _ b t (s 3) (mass3 s) (fun k => hs 3 k) e3
  have e5 : ∀ q, hostMass5 sg (ix3 b t q) = mass5 s q :=
    levelH_row rfl rfl 4 (by omega) _ sg _ _ _ _ _ _ _ _ _ _ _ b t (s 4) (mass4 s) (fun k => hs 4 k) e4
  have e6 : ∀ q, hostMass6 sg (ix3 b t q) = mass6 s q :=
    levelH_row rfl rfl 5 (by omega) _ sg _ _ _ _ _ _ _ _ _ _ _ b t (s 5) (mass5 s) (fun k => hs 5 k) e5
  have e7 : ∀ q, hostMass7 sg (ix3 b t q) = mass7 s q :=
    levelH_row rfl rfl 6 (by omega) _ sg _ _ _ _ _ _ _ _ _ _ _ b t (s 6) (mass6 s) (fun k => hs 6 k) e6
  have e8 : ∀ q, hostMass8 sg (ix3 b t q) = mass8 s q :=
    levelH_row rfl rfl 7 (by omega) _ sg _ _ _ _ _ _ _ _ _ _ _ b t (s 7) (mass7 s) (fun k => hs 7 k) e7
  have e9 : ∀ q, hostMass9 sg (ix3 b t q) = mass9 s q :=
    levelH_row rfl rfl 8 (by omega) _ sg _ _ _ _ _ _ _ _ _ _ _ b t (s 8) (mass8 s) (fun k => hs 8 k) e8
  exact outH_row rfl 9 (by omega) _ sg _ _ _ _ _ _ _ _ _ _ _ _ _ b t (s 9) (mass9 s) (fun k => hs 9 k) e9

end Cert.ReferenceIdeal.TreeValue

end
-- ==== Proof.RefForest.lean ====
/-
  The reference's result array is `forest` of its input, and its run re-posted so.

  Entry (b, t) of the reference's result is `rowOut` of the sigmoids of the input's row `b` for tree `t` (RefValue.lean),
  which is `forest` of the input at (b, t) by definition.
-/
import proofs.«155742_j82162724372482_1_alg».proof.Proof.RefValue
import proofs.«155742_j82162724372482_1_alg».proof.Proof.Forest

noncomputable section

namespace Cert.ReferenceIdeal.TreeValue

open Idealize.ShloMosaic Idealize.ShloMosaic.TcCoe Idealize.ShloMosaic.ValueIdx Idealize.ShloMosaic.StableHlo Idealize.SL.Sem
open Cert.ReferenceIdeal Cert.ReferenceIdeal.Gen Cert.ReferenceIdeal.Value Cert.Tree

/-- The reference's ten levels on the sigmoids of the input `X` give `forest X`. -/
theorem hostOut_forest (X : FVec Ideal S1024x81920 .f32) : hostOut (hostSigmoid X) = forest X := by
  funext j
  obtain ⟨b, t, rfl⟩ : ∃ (b : Fin 1024) (t : Fin 16), j = ix2 b t := ⟨j 0, j 1, eq_ix2 j⟩
  rw [forest_apply]
  exact hostOut_apply (hostSigmoid X) b t (sigRow X b t) fun i k => hostSigmoid_apply X b t i k

/-- The reference's run: every weakly fair execution terminates with the result at `forest` of the input array and the
    input unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v162) = forest (m ((c.tc : Thread nD τ).loc main_arg0))
      ∧ r.2.mem ((c.tc : Thread nD τ).loc main_arg0) = m ((c.tc : Thread nD τ).loc main_arg0) :=
  (θ_run defs _ _).mono
    (fun _ h c => ⟨(h c).1.trans ((result_eq (launchContents m c)).trans (hostOut_forest _)), (h c).2⟩)
    (Cert.ReferenceIdeal.Value.run (F := Ideal) m ρ)

end Cert.ReferenceIdeal.TreeValue

end
-- ==== Proof.lean ====
/-
  A forest of 16 soft decision trees of depth 10, evaluated on 1024 rows: the kernel, 32 rows at a grid point, against
  the reference on all rows at once.

  Each row holds, per tree, 10 levels of 512 logits. The sigmoid of level `i` is cut into 2^i segments and each
  segment's mean is the probability of going right at that node; the mass reaching a node is the product of the branch
  probabilities on the way down; the result is the total mass of the right children below the last level
  (Proof/TreeSpec.lean: `segMean`, `branch`, `children`, `rowOut`; Proof/Forest.lean: `forest`, the result array as one
  function of the input array).

  Both programs compute exactly this, operation for operation: the same sums, the same divisions by the same powers
  of two, the same `1 - mean`, the same products, in the same order. They differ only in how they lay the data out — the
  kernel reshapes where the reference broadcasts along leading axes, the reference's sums start from zero — and in
  spelling the sigmoid, the kernel's one operation against the reference's 1 / (1 + exp (-x)), which on the extended
  reals is the sigmoid's definition. So no law of arithmetic is needed beyond `0 + x = x` and that the float word of
  1.0 is the number one, and the precondition (finite inputs) is never opened: the two results agree at every
  extended-real input.

  The modules: one tree level read at an index, generic in the batch extent and the cut of 512, in each side's own
  operations (Proof/LevelKernel.lean, Proof/LevelHost.lean); each program's ten levels named and its result entry
  read as `rowOut` of the row's sigmoids (Proof/KernelValue.lean, Proof/RefValue.lean); the kernel's 32 blocks
  assembled into the array (Proof/Blocks.lean) and the reference's run re-posted (Proof/RefForest.lean). Both runs end
  with the result at `forest` of the input, and the inputs agree.

  The three frames are the generated frame runs (the reference's is its generated run with the result dropped), and
  the kernel's idealization rewrote nothing, so that claim is `True`.
-/
import proofs.«155742_j82162724372482_1_alg».proof.Defs
import proofs.«155742_j82162724372482_1_alg».proof.Proof.Gen.Kernel
import proofs.«155742_j82162724372482_1_alg».proof.Proof.Gen.Kernel.Skeleton
import proofs.«155742_j82162724372482_1_alg».proof.Proof.Gen.Kernel.Launch
import proofs.«155742_j82162724372482_1_alg».proof.Proof.Gen.Kernel.Points
import proofs.«155742_j82162724372482_1_alg».proof.Proof.Gen.Kernel.Frame
import proofs.«155742_j82162724372482_1_alg».proof.Proof.Gen.KernelIdeal
import proofs.«155742_j82162724372482_1_alg».proof.Proof.Gen.KernelIdeal.Skeleton
import proofs.«155742_j82162724372482_1_alg».proof.Proof.Gen.KernelIdeal.Launch
import proofs.«155742_j82162724372482_1_alg».proof.Proof.Gen.KernelIdeal.Points
import proofs.«155742_j82162724372482_1_alg».proof.Proof.Gen.KernelIdeal.Frame
import proofs.«155742_j82162724372482_1_alg».proof.Proof.Gen.ReferenceIdeal
import proofs.«155742_j82162724372482_1_alg».proof.Proof.Gen.Pre_finite_inputs
import proofs.«155742_j82162724372482_1_alg».proof.Proof.Gen.KernelIdeal.Value
import proofs.«155742_j82162724372482_1_alg».proof.Proof.Gen.ReferenceIdeal.Run
import proofs.«155742_j82162724372482_1_alg».proof.Proof.Blocks
import proofs.«155742_j82162724372482_1_alg».proof.Proof.RefForest
import Idealize.ShloMosaic.Adequacy
import Idealize.ShloMosaic.Init

noncomputable section

namespace Cert.Proof

open Idealize.ShloMosaic Idealize.ShloMosaic.TcCoe Idealize.SL.Sem

/-- The kernel as printed runs and leaves its input unchanged: its generated frame run. -/
theorem frame_kernel : Cert.frame_Kernel := fun m ρ _ => Cert.Kernel.Gen.frame m ρ

/-- The idealized kernel runs and leaves its input unchanged: its generated frame run. -/
theorem frame_kernelIdeal : Cert.frame_KernelIdeal := fun m ρ _ => Cert.KernelIdeal.Gen.frame m ρ

/-- The idealized reference runs and leaves its input unchanged: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the input, both programs end with the result array at `forest` of the input array. -/
theorem algebraic : Cert.algebraic_KernelIdeal_ReferenceIdeal := by
  intro m ρ m' ρ' _ hagree
  refine ⟨fun c => Cert.Tree.forest (m ((c.tc : Thread Cert.KernelIdeal.nD Cert.KernelIdeal.τ).loc Cert.KernelIdeal.main_arg0)),
    Cert.KernelIdeal.TreeValue.run m ρ, ?_⟩
  refine (θ_run Cert.ReferenceIdeal.defs _ _).mono (fun _ h c => ⟨(h c).1.trans ?_, (h c).2⟩)
    (Cert.ReferenceIdeal.TreeValue.run m' ρ')
  rw [hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
